-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x4x32x64x64 : Shape := ⟨5, ![2, 4, 32, 64, 64]⟩
abbrev S_ : Shape := ⟨0, ![]⟩

class Facts : Prop where
  bcast_S_S2x4x32x64x64 : S_.BroadcastsInDim S2x4x32x64x64 (![] : Fin 0 → Fin S2x4x32x64x64.rank)
  reducesTo_S2x4x32x64x64_S_d0_1_2_3_4 : S2x4x32x64x64.ReducesTo [0, 1, 2, 3, 4] S_
  h_S_ : 0 < S_.numel

variable [Facts]

def fn {F : FTy → Type} [FloatOps F] (main_arg0 : FVec F S2x4x32x64x64 .f32) (main_arg1 : FVec F S2x4x32x64x64 .f32) : IVec S_ 1 :=
  let main_v0 : FVec F S2x4x32x64x64 .f32 := Host.absf main_arg0
  let main_cst : FVec F S_ .f32 := constant S_ .f32 0x7F800000#32
  let main_v1 : FVec F S2x4x32x64x64 .f32 := broadcastInDim S2x4x32x64x64 ![] bcast_S_S2x4x32x64x64 main_cst
  let main_v2 : IVec S2x4x32x64x64 1 := cmpf .olt main_v0 main_v1
  let main_c : IVec S_ 1 := constantI S_ 1 1#1
  let main_v3 : IVec S_ 1 := (fun x v => Host.reduce IntOp.andi x v reducesTo_S2x4x32x64x64_S_d0_1_2_3_4 h_S_) main_v2 main_c
  let main_v4 : FVec F S2x4x32x64x64 .f32 := Host.absf main_arg1
  let main_cst_0 : FVec F S_ .f32 := constant S_ .f32 0x7F800000#32
  let main_v5 : FVec F S2x4x32x64x64 .f32 := broadcastInDim S2x4x32x64x64 ![] bcast_S_S2x4x32x64x64 main_cst_0
  let main_v6 : IVec S2x4x32x64x64 1 := cmpf .olt main_v4 main_v5
  let main_c_1 : IVec S_ 1 := constantI S_ 1 1#1
  let main_v7 : IVec S_ 1 := (fun x v => Host.reduce IntOp.andi x v reducesTo_S2x4x32x64x64_S_d0_1_2_3_4 h_S_) main_v6 main_c_1
  let main_v8 : IVec S_ 1 := andi main_v3 main_v7
  main_v8
-- ==== Kernel.lean ====
abbrev S2x4x32x64x64 : Shape := ⟨5, ![2, 4, 32, 64, 64]⟩
abbrev S8x32x4096 : Shape := ⟨3, ![8, 32, 4096]⟩
abbrev S64x128 : Shape := ⟨2, ![64, 128]⟩
abbrev S1x32x4096 : Shape := ⟨3, ![1, 32, 4096]⟩
abbrev S8x128 : Shape := ⟨2, ![8, 128]⟩
abbrev S64x4096 : Shape := ⟨2, ![64, 4096]⟩
abbrev S1x1 : Shape := ⟨2, ![1, 1]⟩
abbrev S32x4096 : Shape := ⟨2, ![32, 4096]⟩
abbrev S4096 : Shape := ⟨1, ![4096]⟩
abbrev S1x4096 : Shape := ⟨2, ![1, 4096]⟩
abbrev S64x1024 : Shape := ⟨2, ![64, 1024]⟩
abbrev S1024x1024 : Shape := ⟨2, ![1024, 1024]⟩
abbrev S1024 : Shape := ⟨1, ![1024]⟩
abbrev S1024x1 : Shape := ⟨2, ![1024, 1]⟩
abbrev S1 : Shape := ⟨1, ![1]⟩
abbrev S_ : Shape := ⟨0, ![]⟩

abbrev nBuf : Space → Nat
  | .hbm => 13
  | .vmem => 9
  | .smem => 0
  | _ => 0

abbrev bufTy : (tb : Table) → Fin (tcTables nBuf tb) → BufTy
  | .hbm, ⟨0, _⟩ => ⟨S2x4x32x64x64, .f32⟩
  | .hbm, ⟨1, _⟩ => ⟨S2x4x32x64x64, .f32⟩
  | .hbm, ⟨2, _⟩ => ⟨S8x32x4096, .f32⟩
  | .hbm, ⟨3, _⟩ => ⟨S8x32x4096, .f32⟩
  | .hbm, ⟨4, _⟩ => ⟨S64x128, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .local _ .vmem, ⟨0, _⟩ => ⟨S1x32x4096, .f32⟩
  | .local _ .vmem, ⟨1, _⟩ => ⟨S1x32x4096, .f32⟩
  | .local _ .vmem, ⟨2, _⟩ => ⟨S1x32x4096, .f32⟩
  | .local _ .vmem, ⟨3, _⟩ => ⟨S1x32x4096, .f32⟩
  | .local _ .vmem, ⟨4, _⟩ => ⟨S8x128, .f32⟩
  | .local _ .vmem, ⟨5, _⟩ => ⟨S8x128, .f32⟩
  | .local _ .vmem, ⟨6, _⟩ => ⟨S64x4096, .bf16⟩
  | .local _ .vmem, ⟨7, _⟩ => ⟨S64x4096, .bf16⟩
  | .local _ .vmem, ⟨8, _⟩ => ⟨S1x1, .f32⟩
  | _, _ => ⟨S2x4x32x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_cst_2 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 4], ![false, false, false]⟩

def k0_mult1 (i : grid0.Coords) : BitVec 32 :=
  let arg1 : BitVec 32 := BitVec.ofNat 32 (i 1).val
  let c1024_i32 : BitVec 32 := 1024#32
  let v8 : BitVec 32 := Scalar.muli arg1 c1024_i32
  v8
def k0_mult2 (i : grid0.Coords) : BitVec 32 :=
  let arg2 : BitVec 32 := BitVec.ofNat 32 (i 2).val
  let c1024_i32_3 : BitVec 32 := 1024#32
  let v10 : BitVec 32 := Scalar.muli arg2 c1024_i32_3
  v10
def k0_off1 (i : grid0.Coords) : Fin 2 → Nat :=
  let c0 : Index := 0#32
  let arg1 : BitVec 32 := BitVec.ofNat 32 (i 1).val
  let c1024_i32 : BitVec 32 := 1024#32
  let v8 : BitVec 32 := Scalar.muli arg1 c1024_i32
  let v9 : BitVec 32 := v8
  let v12 : Index := Scalar.indexCast v9
  ![0, v12.toNat]
def k0_off2 (i : grid0.Coords) : Fin 2 → Nat :=
  let c0_4 : Index := 0#32
  let arg2 : BitVec 32 := BitVec.ofNat 32 (i 2).val
  let c1024_i32_3 : BitVec 32 := 1024#32
  let v10 : BitVec 32 := Scalar.muli arg2 c1024_i32_3
  let v11 : BitVec 32 := v10
  let v14 : Index := Scalar.indexCast v11
  ![0, v14.toNat]
def k0_cond2 (i : grid0.Coords) : BitVec 1 :=
  let arg1 : BitVec 32 := BitVec.ofNat 32 (i 1).val
  let c3_i32 : BitVec 32 := 3#32
  let v3 : BitVec 1 := Scalar.cmpi .eq arg1 c3_i32
  let arg2 : BitVec 32 := BitVec.ofNat 32 (i 2).val
  let c3_i32_1 : BitVec 32 := 3#32
  let v4 : BitVec 1 := Scalar.cmpi .eq arg2 c3_i32_1
  let v5 : BitVec 1 := Scalar.andi v3 v4
  let v27 : BitVec 32 := Scalar.extui v5
  let c0_i32_11 : BitVec 32 := 0#32
  let v28 : BitVec 1 := Scalar.cmpi .ne v27 c0_i32_11
  v28

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1x32x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x32x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

class Facts₀ : Prop where
  shapeCasts_S2x4x32x64x64_S8x32x4096 : S2x4x32x64x64.ShapeCasts S8x32x4096
  inb_S1x32x4096_S1x32x4096_0_0_0 : ∀ a, (![0, 0, 0] : Fin 3 → Nat) a + S1x32x4096.size a ≤ S1x32x4096.size a
  h_S1x32x4096 : 0 < S1x32x4096.numel
  shapeCasts_S1x32x4096_S32x4096 : S1x32x4096.ShapeCasts S32x4096
  reduces_S32x4096_S4096 : S32x4096.Reduces [0] S4096
  shapeCasts_S4096_S1x4096 : S4096.ShapeCasts S1x4096
  broadcasts_S1x4096_S32x4096 : S1x4096.Broadcasts S32x4096
  bitsLt_bf16_f32 : FTy.bits .bf16 < FTy.bits .f32
  inb_S64x4096_S32x4096_0_0 : ∀ a, (![0, 0] : Fin 2 → Nat) a + S32x4096.size a ≤ S64x4096.size a
  h_S32x4096 : 0 < S32x4096.numel
  shapeCasts_S32x4096_S32x4096 : S32x4096.ShapeCasts S32x4096
  packedbf16_S64x4096_S32x4096_0_0 : (Rect.unit (s := S64x4096) ![0, 0] S32x4096.size inb_S64x4096_S32x4096_0_0).PackedRows (EltTy.packing .bf16)
  inb_S64x4096_S32x4096_32_0 : ∀ a, (![32, 0] : Fin 2 → Nat) a + S32x4096.size a ≤ S64x4096.size a
  packedbf16_S64x4096_S32x4096_32_0 : (Rect.unit (s := S64x4096) ![32, 0] S32x4096.size inb_S64x4096_S32x4096_32_0).PackedRows (EltTy.packing .bf16)
  inb_S1x1_S1x1_0_0 : ∀ a, (![0, 0] : Fin 2 → Nat) a + S1x1.size a ≤ S1x1.size a
  h_S1x1 : 0 < S1x1.numel
  shapeCasts_S1x1_S1x1 : S1x1.ShapeCasts S1x1
  h_S64x1024 : 0 < S64x1024.numel
  reduces_S1024x1024_S1024 : S1024x1024.Reduces [1] S1024
  shapeCasts_S1024_S1024x1 : S1024.ShapeCasts S1024x1
  reduces_S1024x1_S1 : S1024x1.Reduces [0] S1
  shapeCasts_S1_S1x1 : S1.ShapeCasts S1x1
  iota_S8x128_d0_w32 : S8x128.Iotas .tc 32 [0]
  iota_S8x128_d1_w32 : S8x128.Iotas .tc 32 [1]
  broadcasts_S1x1_S8x128 : S1x1.Broadcasts S8x128
  inb_S8x128_S8x128_0_0 : ∀ a, (![0, 0] : Fin 2 → Nat) a + S8x128.size a ≤ S8x128.size a
  h_S8x128 : 0 < S8x128.numel
  reducesTo_S64x128_S_d0_1 : S64x128.ReducesTo [0, 1] S_
  h_S_ : 0 < S_.numel
  dot_S64x1024_S64x1024_S1024x1024_0_0_1_1_n_n_wf : DotDims.WF S64x1024 S64x1024 S1024x1024 [0] [0] [1] [1] [] []
  hrank0 : 0 < grid0.rank
  k0_mult1_dvd : ∀ i : grid0.Coords, 128 ∣ (k0_mult1 i).toNat
  k0_mult2_dvd : ∀ i : grid0.Coords, 128 ∣ (k0_mult2 i).toNat
  k0_off1_inb : ∀ i : grid0.Coords, ∀ a, (k0_off1 i) a + S64x1024.size a ≤ S64x4096.size a
  k0_off2_inb : ∀ i : grid0.Coords, ∀ a, (k0_off2 i) a + S64x1024.size a ≤ S64x4096.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x32x4096.size a ≤ S8x32x4096.size a
  hwx0_0 : ∀ i : grid0.Coords, EltTy.bits .f32 = 32 ∨ (Rect.block (s := S8x32x4096) S1x32x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x32x4096.size a ≤ S8x32x4096.size a
  hwx0_1 : ∀ i : grid0.Coords, EltTy.bits .f32 = 32 ∨ (Rect.block (s := S8x32x4096) S1x32x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x128.size a ≤ S64x128.size a
  hwx0_2 : ∀ i : grid0.Coords, EltTy.bits .f32 = 32 ∨ (Rect.block (s := S64x128) S8x128.size (cc0_transform_2 i) (hinb0_2 i)).WholeWords (EltTy.packing .f32)

variable [Facts₀]

def dot_S64x1024_S64x1024_S1024x1024_0_0_1_1_n_n : DotDims S64x1024 S64x1024 S1024x1024 where
  lhsContracting := [0]
  rhsContracting := [0]
  lhsNonContracting := [1]
  rhsNonContracting := [1]
  lhsBatch := []
  rhsBatch := []
  wf := dot_S64x1024_S64x1024_S1024x1024_0_0_1_1_n_n_wf

abbrev win0_0 : Pipeline.Window sig grid0 :=
  Pipeline.Window.ofSpec (Memref.whole main_v0) S1x32x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x32x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S2x4x32x64x64 : Shape := ⟨5, ![2, 4, 32, 64, 64]⟩
abbrev S8x32x64x64 : Shape := ⟨4, ![8, 32, 64, 64]⟩
abbrev S_ : Shape := ⟨0, ![]⟩
abbrev S8x64x64 : Shape := ⟨3, ![8, 64, 64]⟩
abbrev S8x1x64x64 : Shape := ⟨4, ![8, 1, 64, 64]⟩
abbrev S8x32x4096 : Shape := ⟨3, ![8, 32, 4096]⟩
abbrev S8x4096x4096 : Shape := ⟨3, ![8, 4096, 4096]⟩

abbrev nBuf : Space → Nat
  | .hbm => 38
  | .vmem => 0
  | .smem => 0
  | _ => 0

abbrev bufTy : (tb : Table) → Fin (tcTables nBuf tb) → BufTy
  | .hbm, ⟨0, _⟩ => ⟨S2x4x32x64x64, .f32⟩
  | .hbm, ⟨1, _⟩ => ⟨S2x4x32x64x64, .f32⟩
  | .hbm, ⟨2, _⟩ => ⟨S8x32x64x64, .f32⟩
  | .hbm, ⟨3, _⟩ => ⟨S8x32x64x64, .f32⟩
  | .hbm, ⟨4, _⟩ => ⟨S8x32x64x64, .f32⟩
  | .hbm, ⟨5, _⟩ => ⟨S_, .f32⟩
  | .hbm, ⟨6, _⟩ => ⟨S8x64x64, .f32⟩
  | .hbm, ⟨7, _⟩ => ⟨S8x1x64x64, .f32⟩
  | .hbm, ⟨8, _⟩ => ⟨S8x1x64x64, .f32⟩
  | .hbm, ⟨9, _⟩ => ⟨S_, .f32⟩
  | .hbm, ⟨10, _⟩ => ⟨S8x1x64x64, .f32⟩
  | .hbm, ⟨11, _⟩ => ⟨S8x1x64x64, .f32⟩
  | .hbm, ⟨12, _⟩ => ⟨S8x32x64x64, .f32⟩
  | .hbm, ⟨13, _⟩ => ⟨S8x32x64x64, .f32⟩
  | .hbm, ⟨14, _⟩ => ⟨S8x32x4096, .f32⟩
  | .hbm, ⟨15, _⟩ => ⟨S8x4096x4096, .f32⟩
  | .hbm, ⟨16, _⟩ => ⟨S8x32x64x64, .f32⟩
  | .hbm, ⟨17, _⟩ => ⟨S_, .f32⟩
  | .hbm, ⟨18, _⟩ => ⟨S8x64x64, .f32⟩
  | .hbm, ⟨19, _⟩ => ⟨S8x1x64x64, .f32⟩
  | .hbm, ⟨20, _⟩ => ⟨S8x1x64x64, .f32⟩
  | .hbm, ⟨21, _⟩ => ⟨S_, .f32⟩
  | .hbm, ⟨22, _⟩ => ⟨S8x1x64x64, .f32⟩
  | .hbm, ⟨23, _⟩ => ⟨S8x1x64x64, .f32⟩
  | .hbm, ⟨24, _⟩ => ⟨S8x32x64x64, .f32⟩
  | .hbm, ⟨25, _⟩ => ⟨S8x32x64x64, .f32⟩
  | .hbm, ⟨26, _⟩ => ⟨S8x32x4096, .f32⟩
  | .hbm, ⟨27, _⟩ => ⟨S8x4096x4096, .f32⟩
  | .hbm, ⟨28, _⟩ => ⟨S8x4096x4096, .f32⟩
  | .hbm, ⟨29, _⟩ => ⟨S8x4096x4096, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | _, _ => ⟨S2x4x32x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_2 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_3 : Ref sig .tc := ⟨.hbm, 30, rfl⟩
abbrev main_v24 : Ref sig .tc := ⟨.hbm, 31, rfl⟩
abbrev main_cst_4 : Ref sig .tc := ⟨.hbm, 32, rfl⟩
abbrev main_v25 : Ref sig .tc := ⟨.hbm, 33, rfl⟩
abbrev main_cst_5 : Ref sig .tc := ⟨.hbm, 34, rfl⟩
abbrev main_v26 : Ref sig .tc := ⟨.hbm, 35, rfl⟩
abbrev main_cst_6 : Ref sig .tc := ⟨.hbm, 36, rfl⟩
abbrev main_v27 : Ref sig .tc := ⟨.hbm, 37, rfl⟩

abbrev nD : Nat := 1
abbrev τ : Topo := Topo.v7x

variable {F : FTy → Type} [FloatOps F]

class Facts₀ : Prop where
  shapeCasts_S2x4x32x64x64_S8x32x64x64 : S2x4x32x64x64.ShapeCasts S8x32x64x64
  reducesTo_S8x32x64x64_S8x64x64_d1 : S8x32x64x64.ReducesTo [1] S8x64x64
  h_S_ : 0 < S_.numel
  bcast_S8x64x64_S8x1x64x64_0_2_3 : S8x64x64.BroadcastsInDim S8x1x64x64 (![0, 2, 3] : Fin 3 → Fin S8x1x64x64.rank)
  bcast_S_S8x1x64x64 : S_.BroadcastsInDim S8x1x64x64 (![] : Fin 0 → Fin S8x1x64x64.rank)
  bcast_S8x1x64x64_S8x32x64x64_0_1_2_3 : S8x1x64x64.BroadcastsInDim S8x32x64x64 (![0, 1, 2, 3] : Fin 4 → Fin S8x32x64x64.rank)
  shapeCasts_S8x32x64x64_S8x32x4096 : S8x32x64x64.ShapeCasts S8x32x4096
  reducesTo_S8x4096x4096_S_d0_1_2 : S8x4096x4096.ReducesTo [0, 1, 2] S_
  dot_S8x32x4096_S8x32x4096_S8x4096x4096_1_1_2_2_0_0_wf : DotDims.WF S8x32x4096 S8x32x4096 S8x4096x4096 [1] [1] [2] [2] [0] [0]

variable [Facts₀]

def dot_S8x32x4096_S8x32x4096_S8x4096x4096_1_1_2_2_0_0 : DotDims S8x32x4096 S8x32x4096 S8x4096x4096 where
  lhsContracting := [1]
  rhsContracting := [1]
  lhsNonContracting := [2]
  rhsNonContracting := [2]
  lhsBatch := [0]
  rhsBatch := [0]
  wf := dot_S8x32x4096_S8x32x4096_S8x4096x4096_1_1_2_2_0_0_wf

class Facts : Prop extends Facts₀ where

variable [Facts]
-- ==== Proof.Pieces.lean ====
/-
  What one run of the kernel body leaves in its three scratch buffers and its output block, case by case.

  At a sample's first tile the body stores two 32-row halves into each 64-row scratch matrix (the upper half last), so
  the matrix read back is the two halves stacked; a tile's loads read 1024 consecutive columns of each matrix at the
  tile's column offsets; the accumulator's one entry is stored from the tile's sum added to what it held (zero at the
  first tile); at a sample's last tile the output block is stored from the accumulator just updated.
-/
import proofs.«158819_j85057532330632_2_alg».proof.Proof.Gen.KernelIdeal.Frame
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- Two 32-row matrices set one above the other: rows 0–31 from `lo`, rows 32–63 from `hi`. -/
def stack (lo hi : Vec F S32x4096 .bf16) : Vec F S64x4096 .bf16 := fun y =>
  if h : (y 0).val < 32 then lo (ix2 (n0 := 32) (n1 := 4096) ⟨(y 0).val, h⟩ ⟨(y 1).val, (y 1).isLt⟩)
  else hi (ix2 (n0 := 32) (n1 := 4096) ⟨(y 0).val - 32, by have h0 : (y 0).val < 64 := (y 0).isLt; omega⟩ ⟨(y 1).val, (y 1).isLt⟩)

/-- Columns `1024·o … 1024·o + 1023` of a 64-row matrix. -/
def tileCols (X : Vec F S64x4096 .bf16) (o : Nat) (ho : o < 4) : Vec F S64x1024 .bf16 := fun y =>
  X (ix2 (n0 := 64) (n1 := 4096) ⟨(y 0).val, (y 0).isLt⟩ ⟨1024 * o + (y 1).val, by have h1 : (y 1).val < 1024 := (y 1).isLt; omega⟩)

/-- The upper store written last over the lower one leaves the stacked matrix. -/
theorem canon_stack (lo hi : Vec F S32x4096 .bf16)
    (inb32 : ∀ a, (![32, 0] : Fin 2 → Nat) a + S32x4096.size a ≤ S64x4096.size a)
    (inb0 : ∀ a, (![0, 0] : Fin 2 → Nat) a + S32x4096.size a ≤ S64x4096.size a) :
    View.canon (Val := Elt F) [(⟨Rect.unit (s := S64x4096) ![32, 0] S32x4096.size inb32, hi⟩ : View.Piece (Elt F) S64x4096 .bf16),
      ⟨Rect.unit (s := S64x4096) ![0, 0] S32x4096.size inb0, lo⟩] = stack lo hi := by
  funext y
  have h0 : (y 0).val < 64 := (y 0).isLt
  have h1 : (y 1).val < 4096 := (y 1).isLt
  by_cases h : (y 0).val < 32
  · have hnot : y ∉ (Rect.unit (s := S64x4096) ![32, 0] S32x4096.size inb32).set := by
      rw [Rect.mem_set_unit]
      intro hall
      have := (hall 0).1
      change 32 ≤ (y 0).val at this
      omega
    refine (View.canon_cons_of_not_mem (Val := Elt F) (⟨Rect.unit (s := S64x4096) ![32, 0] S32x4096.size inb32, hi⟩ : View.Piece (Elt F) S64x4096 .bf16)
      [(⟨Rect.unit (s := S64x4096) ![0, 0] S32x4096.size inb0, lo⟩ : View.Piece (Elt F) S64x4096 .bf16)] hnot).trans ?_
    have hy : (Rect.unit (s := S64x4096) ![0, 0] S32x4096.size inb0).emb (ix2 (n0 := 32) (n1 := 4096) ⟨(y 0).val, h⟩ ⟨(y 1).val, h1⟩) = y :=
      funext fun a => Fin.ext (by
        match a with
        | ⟨0, _⟩ => show 0 + 1 * (y 0).val = (y 0).val; omega
        | ⟨1, _⟩ => show 0 + 1 * (y 1).val = (y 1).val; omega)
    refine (congrArg (View.canon (Val := Elt F) [(⟨Rect.unit (s := S64x4096) ![0, 0] S32x4096.size inb0, lo⟩ : View.Piece (Elt F) S64x4096 .bf16)]) hy.symm).trans
      ((View.canon_cons_emb (Val := Elt F) (Rect.unit (s := S64x4096) ![0, 0] S32x4096.size inb0) lo [] _).trans ?_)
    unfold stack
    rw [dif_pos h]
  · have hy : (Rect.unit (s := S64x4096) ![32, 0] S32x4096.size inb32).emb (ix2 (n0 := 32) (n1 := 4096) ⟨(y 0).val - 32, by omega⟩ ⟨(y 1).val, h1⟩) = y :=
      funext fun a => Fin.ext (by
        match a with
        | ⟨0, _⟩ => show 32 + 1 * ((y 0).val - 32) = (y 0).val; omega
        | ⟨1, _⟩ => show 0 + 1 * (y 1).val = (y 1).val; omega)
    refine (congrArg (View.canon (Val := Elt F) [(⟨Rect.unit (s := S64x4096) ![32, 0] S32x4096.size inb32, hi⟩ : View.Piece (Elt F) S64x4096 .bf16),
      ⟨Rect.unit (s := S64x4096) ![0, 0] S32x4096.size inb0, lo⟩]) hy.symm).trans
      ((View.canon_cons_emb (Val := Elt F) (Rect.unit (s := S64x4096) ![32, 0] S32x4096.size inb32) hi _ _).trans ?_)
    unfold stack
    rw [dif_neg h]

/-- A load of 1024 columns from the column offset the body computes reads that column tile. -/
theorem ld_tile1 (X : Vec F S64x4096 .bf16) (i : grid0.Coords) (inb) :
    View.ld X (Rect.unit (s := S64x4096) (k0_off1 i) S64x1024.size inb) = tileCols X (i 1).val (i 1).isLt := by
  funext y
  unfold tileCols
  refine congrArg X (funext fun a => Fin.ext ?_)
  have e0 : (k0_off1 i) 0 = 0 := by rw [k0_off1_eq i]; rfl
  have e1 : (k0_off1 i) 1 = 1024 * (i 1).val := by rw [k0_off1_eq i]; rfl
  match a with
  | ⟨0, _⟩ => show (k0_off1 i) 0 + 1 * (y 0).val = (y 0).val; omega
  | ⟨1, _⟩ => show (k0_off1 i) 1 + 1 * (y 1).val = 1024 * (i 1).val + (y 1).val; omega

theorem ld_tile2 (X : Vec F S64x4096 .bf16) (i : grid0.Coords) (inb) :
    View.ld X (Rect.unit (s := S64x4096) (k0_off2 i) S64x1024.size inb) = tileCols X (i 2).val (i 2).isLt := by
  funext y
  unfold tileCols
  refine congrArg X (funext fun a => Fin.ext ?_)
  have e0 : (k0_off2 i) 0 = 0 := by rw [k0_off2_eq i]; rfl
  have e1 : (k0_off2 i) 1 = 1024 * (i 2).val := by rw [k0_off2_eq i]; rfl
  match a with
  | ⟨0, _⟩ => show (k0_off2 i) 0 + 1 * (y 0).val = (y 0).val; omega
  | ⟨1, _⟩ => show (k0_off2 i) 1 + 1 * (y 1).val = 1024 * (i 2).val + (y 1).val; omega

/-- At the first tile of a sample the left scratch is left holding the teacher's normalised rows above the student's. -/
theorem sA0 (c : Dev nD) (i : grid0.Coords) (a3 : Memref sig .tc .vmem S1x32x4096 .f32) (h3 : a3.IsWhole) (a4 : Memref sig .tc .vmem S1x32x4096 .f32) (h4 : a4.IsWhole) (a5 : Memref sig .tc .vmem S8x128 .f32) (h5 : a5.IsWhole) (a6 : Memref sig .tc .vmem S64x4096 .bf16) (h6 : a6.IsWhole) (a7 : Memref sig .tc .vmem S64x4096 .bf16) (h7 : a7.IsWhole) (a8 : Memref sig .tc .vmem S1x1 .f32) (h8 : a8.IsWhole) (hc0 : cond0_0 i) (hc1 : ¬cond0_1 i) (x0 x1 : Vec F S1x32x4096 .f32) :
    sout0_A_0 c i a3 h3 a4 h4 a5 h5 a6 h6 a7 h7 a8 h8 hc0 hc1 x0 x1 = stack (k0_pay6 x1) (k0_pay7 x0) := by
  unfold sout0_A_0
  rw [View.read_writes_eq_canon _ _ _ (scover0_A_0 c i a3 h3 a4 h4 a5 h5 a6 h6 a7 h7 a8 h8 hc0 hc1 x0 x1)]
  unfold kernelRun0_A
  dsimp only
  sl_unfold_words
  simp only [View.readAt_eq_ld, h3.read_unread, h4.read_unread, View.ld_unit_zero (S := S1x32x4096) hz3]
  exact canon_stack _ _ _ _

/-- and the right scratch the teacher's rows above the negated student's. -/
theorem sA1 (c : Dev nD) (i : grid0.Coords) (a3 : Memref sig .tc .vmem S1x32x4096 .f32) (h3 : a3.IsWhole) (a4 : Memref sig .tc .vmem S1x32x4096 .f32) (h4 : a4.IsWhole) (a5 : Memref sig .tc .vmem S8x128 .f32) (h5 : a5.IsWhole) (a6 : Memref sig .tc .vmem S64x4096 .bf16) (h6 : a6.IsWhole) (a7 : Memref sig .tc .vmem S64x4096 .bf16) (h7 : a7.IsWhole) (a8 : Memref sig .tc .vmem S1x1 .f32) (h8 : a8.IsWhole) (hc0 : cond0_0 i) (hc1 : ¬cond0_1 i) (x0 x1 : Vec F S1x32x4096 .f32) :
    sout0_A_1 c i a3 h3 a4 h4 a5 h5 a6 h6 a7 h7 a8 h8 hc0 hc1 x0 x1 = stack (k0_pay8 x1) (k0_pay9 x0) := by
  unfold sout0_A_1
  rw [View.read_writes_eq_canon _ _ _ (scover0_A_1 c i a3 h3 a4 h4 a5 h5 a6 h6 a7 h7 a8 h8 hc0 hc1 x0 x1)]
  unfold kernelRun0_A
  dsimp only
  sl_unfold_words
  simp only [View.readAt_eq_ld, h3.read_unread, h4.read_unread, View.ld_unit_zero (S := S1x32x4096) hz3]
  exact canon_stack _ _ _ _

/-- At the first tile the accumulator is zeroed and then holds zero plus the tile's sum. -/
theorem sA2 (c : Dev nD) (i : grid0.Coords) (a3 : Memref sig .tc .vmem S1x32x4096 .f32) (h3 : a3.IsWhole) (a4 : Memref sig .tc .vmem S1x32x4096 .f32) (h4 : a4.IsWhole) (a5 : Memref sig .tc .vmem S8x128 .f32) (h5 : a5.IsWhole) (a6 : Memref sig .tc .vmem S64x4096 .bf16) (h6 : a6.IsWhole) (a7 : Memref sig .tc .vmem S64x4096 .bf16) (h7 : a7.IsWhole) (a8 : Memref sig .tc .vmem S1x1 .f32) (h8 : a8.IsWhole) (hc0 : cond0_0 i) (hc1 : ¬cond0_1 i) (x0 x1 : Vec F S1x32x4096 .f32) :
    sout0_A_2 c i a3 h3 a4 h4 a5 h5 a6 h6 a7 h7 a8 h8 hc0 hc1 x0 x1
      = k0_pay2 (tileCols (stack (k0_pay6 x1) (k0_pay7 x0)) (i 1).val (i 1).isLt)
          (tileCols (stack (k0_pay8 x1) (k0_pay9 x0)) (i 2).val (i 2).isLt) (k0_pay1 (FloatOps.ofBits .f32 0#32)) := by
  unfold sout0_A_2
  rw [View.read_writes_eq_canon _ _ _ (scover0_A_2 c i a3 h3 a4 h4 a5 h5 a6 h6 a7 h7 a8 h8 hc0 hc1 x0 x1)]
  unfold kernelRun0_A
  dsimp only
  sl_unfold_words
  rw [View.canon_cons_unit_zero (S := S1x1) hz2, View.readCov_unit_zero (S := S1x1) _ hz2]
  simp only [View.readAt_eq_ld, View.read_writes_junk_eq_canon, h3.read_unread, h4.read_unread,
    View.ld_unit_zero (S := S1x32x4096) hz3]
  have e1 := canon_stack (F := F) (k0_pay6 x1) (k0_pay7 x0) inb_S64x4096_S32x4096_32_0 inb_S64x4096_S32x4096_0_0
  have e2 := canon_stack (F := F) (k0_pay8 x1) (k0_pay9 x0) inb_S64x4096_S32x4096_32_0 inb_S64x4096_S32x4096_0_0
  exact congrArg₂ (fun a b => k0_pay2 a b (k0_pay1 (FloatOps.ofBits .f32 0#32)))
    ((congrArg (fun X => View.ld X (Rect.unit (s := S64x4096) (k0_off1 i) S64x1024.size (k0_off1_inb i))) e1).trans (ld_tile1 _ i _))
    ((congrArg (fun X => View.ld X (Rect.unit (s := S64x4096) (k0_off2 i) S64x1024.size (k0_off2_inb i))) e2).trans (ld_tile2 _ i _))

/-- At a later tile the accumulator gains the tile's sum, the two scratch matrices being read as the tile before left them. -/
theorem sB2 (c : Dev nD) (i : grid0.Coords) (a3 : Memref sig .tc .vmem S1x32x4096 .f32) (h3 : a3.IsWhole) (a4 : Memref sig .tc .vmem S1x32x4096 .f32) (h4 : a4.IsWhole) (a5 : Memref sig .tc .vmem S8x128 .f32) (h5 : a5.IsWhole) (a6 : Memref sig .tc .vmem S64x4096 .bf16) (h6 : a6.IsWhole) (a7 : Memref sig .tc .vmem S64x4096 .bf16) (h7 : a7.IsWhole) (a8 : Memref sig .tc .vmem S1x1 .f32) (h8 : a8.IsWhole) (hc0 : ¬cond0_0 i) (hc1 : ¬cond0_1 i) (x0 x1 : Vec F S1x32x4096 .f32)
    (xs0 xs1 : Vec F S64x4096 .bf16) (xs2 : Vec F S1x1 .f32) :
    sout0_B_2 c i a3 h3 a4 h4 a5 h5 a6 h6 a7 h7 a8 h8 hc0 hc1 x0 x1 xs0 xs1 xs2
      = k0_pay2 (tileCols xs0 (i 1).val (i 1).isLt) (tileCols xs1 (i 2).val (i 2).isLt) xs2 := by
  unfold sout0_B_2
  rw [View.read_writes_eq_canon _ _ _ (scover0_B_2 c i a3 h3 a4 h4 a5 h5 a6 h6 a7 h7 a8 h8 hc0 hc1 x0 x1 xs0 xs1 xs2)]
  unfold kernelRun0_B
  dsimp only
  sl_unfold_words
  rw [View.canon_unit_zero hz2]
  simp only [View.readAt_eq_ld, h6.read_unread, h7.read_unread, h8.read_unread, View.ld_unit_zero (S := S1x1) hz2]
  exact congrArg₂ (fun a b => k0_pay2 a b xs2) (ld_tile1 xs0 i (k0_off1_inb i)) (ld_tile2 xs1 i (k0_off2_inb i))

/-- The same at the last tile of a sample, -/
theorem sC2 (c : Dev nD) (i : grid0.Coords) (a3 : Memref sig .tc .vmem S1x32x4096 .f32) (h3 : a3.IsWhole) (a4 : Memref sig .tc .vmem S1x32x4096 .f32) (h4 : a4.IsWhole) (a5 : Memref sig .tc .vmem S8x128 .f32) (h5 : a5.IsWhole) (a6 : Memref sig .tc .vmem S64x4096 .bf16) (h6 : a6.IsWhole) (a7 : Memref sig .tc .vmem S64x4096 .bf16) (h7 : a7.IsWhole) (a8 : Memref sig .tc .vmem S1x1 .f32) (h8 : a8.IsWhole) (hc0 : ¬cond0_0 i) (hc1 : cond0_1 i) (x0 x1 : Vec F S1x32x4096 .f32)
    (xs0 xs1 : Vec F S64x4096 .bf16) (xs2 : Vec F S1x1 .f32) :
    sout0_C_2 c i a3 h3 a4 h4 a5 h5 a6 h6 a7 h7 a8 h8 hc0 hc1 x0 x1 xs0 xs1 xs2
      = k0_pay2 (tileCols xs0 (i 1).val (i 1).isLt) (tileCols xs1 (i 2).val (i 2).isLt) xs2 := by
  unfold sout0_C_2
  rw [View.read_writes_eq_canon _ _ _ (scover0_C_2 c i a3 h3 a4 h4 a5 h5 a6 h6 a7 h7 a8 h8 hc0 hc1 x0 x1 xs0 xs1 xs2)]
  unfold kernelRun0_C
  dsimp only
  sl_unfold_words
  rw [View.canon_unit_zero hz2]
  simp only [View.readAt_eq_ld, h6.read_unread, h7.read_unread, h8.read_unread, View.ld_unit_zero (S := S1x1) hz2]
  exact congrArg₂ (fun a b => k0_pay2 a b xs2) (ld_tile1 xs0 i (k0_off1_inb i)) (ld_tile2 xs1 i (k0_off2_inb i))

/-- where the output block is then written from the accumulator just updated. -/
theorem oC2 (c : Dev nD) (i : grid0.Coords) (a3 : Memref sig .tc .vmem S1x32x4096 .f32) (h3 : a3.IsWhole) (a4 : Memref sig .tc .vmem S1x32x4096 .f32) (h4 : a4.IsWhole) (a5 : Memref sig .tc .vmem S8x128 .f32) (h5 : a5.IsWhole) (a6 : Memref sig .tc .vmem S64x4096 .bf16) (h6 : a6.IsWhole) (a7 : Memref sig .tc .vmem S64x4096 .bf16) (h7 : a7.IsWhole) (a8 : Memref sig .tc .vmem S1x1 .f32) (h8 : a8.IsWhole) (hc0 : ¬cond0_0 i) (hc1 : cond0_1 i) (x0 x1 : Vec F S1x32x4096 .f32)
    (xs0 xs1 : Vec F S64x4096 .bf16) (xs2 : Vec F S1x1 .f32) :
    out0_C_2 c i a3 h3 a4 h4 a5 h5 a6 h6 a7 h7 a8 h8 hc0 hc1 x0 x1 xs0 xs1 xs2
      = k0_pay3 (k0_pay2 (tileCols xs0 (i 1).val (i 1).isLt) (tileCols xs1 (i 2).val (i 2).isLt) xs2) := by
  unfold out0_C_2
  rw [View.read_writes_eq_canon _ _ _ (cover0_C_2 c i a3 h3 a4 h4 a5 h5 a6 h6 a7 h7 a8 h8 hc0 hc1 x0 x1 xs0 xs1 xs2)]
  unfold kernelRun0_C
  dsimp only
  sl_unfold_words
  rw [View.canon_unit_zero hz2, View.readCov_unit_zero (S := S1x1) _ hz2]
  simp only [View.readAt_eq_ld, h6.read_unread, h7.read_unread, h8.read_unread, View.ld_unit_zero (S := S1x1) hz2]
  exact congrArg₂ (fun a b => k0_pay3 (k0_pay2 a b xs2)) (ld_tile1 xs0 i (k0_off1_inb i)) (ld_tile2 xs1 i (k0_off2_inb i))

end Cert.KernelIdeal.Pieces
end
-- ==== Proof.InvDefs.lean ====
/-
  The pieces the grid-point invariant is stated over: each sample's two blocks as the region finds them, the two stacked
  matrices made from them, and the accumulator's value tile by tile.
-/
import proofs.«158819_j85057532330632_2_alg».proof.Proof.Pieces

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Inv

open Cert.KernelIdeal Cert.KernelIdeal.Gen Cert.KernelIdeal.Pieces

variable {F : FTy → Type} [FloatOps F]
variable (m : (ℓ : Loc nD τ sig) → Buf (Elt F) ℓ)

/-- The tile coordinates of a point: i = (t mod 16) / 4, j = t mod 4. -/
theorem coords12 : ∀ t : Fin cfg0.N, ((grid0.coords t) 1).val = t.val % 16 / 4 ∧ ((grid0.coords t) 2).val = t.val % 4 :=
  (by decide +kernel : ∀ t : Fin grid0.N, ((grid0.coords t) 1).val = t.val % 16 / 4 ∧ ((grid0.coords t) 2).val = t.val % 4)

/-- Both input windows hold sample t / 16 whole. -/
theorem idx_facts0 : ∀ t : Fin cfg0.N, win0_0.index t (0 : Fin 3) = t.val / 16 ∧ win0_0.index t (1 : Fin 3) = 0 ∧ win0_0.index t (2 : Fin 3) = 0
    ∧ win0_1.index t (0 : Fin 3) = t.val / 16 ∧ win0_1.index t (1 : Fin 3) = 0 ∧ win0_1.index t (2 : Fin 3) = 0 :=
  (by decide +kernel : ∀ t : Fin grid0.N, _)

/-- Sample n of the student's array as the region finds it, as a block (n read modulo 8). -/
def blkS (c : Dev nD) (n : ℕ) : Vec F S1x32x4096 .f32 := fun y =>
  V m c main_v0 (ix3 (n0 := 8) (n1 := 32) (n2 := 4096) ⟨n % 8, Nat.mod_lt _ (by decide)⟩ ⟨(y 1).val, (y 1).isLt⟩ ⟨(y 2).val, (y 2).isLt⟩)
/-- Sample n of the teacher's array. -/
def blkT (c : Dev nD) (n : ℕ) : Vec F S1x32x4096 .f32 := fun y =>
  V m c main_v1 (ix3 (n0 := 8) (n1 := 32) (n2 := 4096) ⟨n % 8, Nat.mod_lt _ (by decide)⟩ ⟨(y 1).val, (y 1).isLt⟩ ⟨(y 2).val, (y 2).isLt⟩)

theorem div16_lt (t : Fin cfg0.N) : t.val / 16 < 8 := by
  have h := t.isLt; have hN : cfg0.N = 128 := N_0; omega

theorem iblk0_eq (c : Dev nD) (t : Fin cfg0.N) : (iblk m c 0 t : Vec F S1x32x4096 .f32) = blkS m c (t.val / 16) := by
  obtain ⟨e0, e1, e2, -, -, -⟩ := idx_facts0 t
  funext j
  unfold iblk blkS
  rw [View.read_apply]
  show V m c main_v0 _ = V m c main_v0 _
  refine congrArg (V m c main_v0) (funext fun a => Fin.ext ?_)
  have h0 : (j 0).val < 1 := (j 0).isLt
  have hd := div16_lt t
  match a with
  | ⟨0, _⟩ => show win0_0.index t (0 : Fin 3) * 1 + 1 * (j 0).val = t.val / 16 % 8; omega
  | ⟨1, _⟩ => show win0_0.index t (1 : Fin 3) * 32 + 1 * (j 1).val = (j 1).val; omega
  | ⟨2, _⟩ => show win0_0.index t (2 : Fin 3) * 4096 + 1 * (j 2).val = (j 2).val; omega

theorem iblk1_eq (c : Dev nD) (t : Fin cfg0.N) : (iblk m c 1 t : Vec F S1x32x4096 .f32) = blkT m c (t.val / 16) := by
  obtain ⟨-, -, -, e0, e1, e2⟩ := idx_facts0 t
  funext j
  unfold iblk blkT
  rw [View.read_apply]
  show V m c main_v1 _ = V m c main_v1 _
  refine congrArg (V m c main_v1) (funext fun a => Fin.ext ?_)
  have h0 : (j 0).val < 1 := (j 0).isLt
  have hd := div16_lt t
  match a with
  | ⟨0, _⟩ => show win0_1.index t (0 : Fin 3) * 1 + 1 * (j 0).val = t.val / 16 % 8; omega
  | ⟨1, _⟩ => show win0_1.index t (1 : Fin 3) * 32 + 1 * (j 1).val = (j 1).val; omega
  | ⟨2, _⟩ => show win0_1.index t (2 : Fin 3) * 4096 + 1 * (j 2).val = (j 2).val; omega

/-- The left stacked matrix of a sample: the teacher's normalised rows above the student's. -/
abbrev Lm (xS xT : Vec F S1x32x4096 .f32) : Vec F S64x4096 .bf16 := stack (k0_pay6 xT) (k0_pay7 xS)
/-- The right one: the teacher's rows above the negated student's. -/
abbrev Rm (xS xT : Vec F S1x32x4096 .f32) : Vec F S64x4096 .bf16 := stack (k0_pay8 xT) (k0_pay9 xS)

theorem tileCols_congr (X : Vec F S64x4096 .bf16) {o o' : ℕ} (e : o = o') (ho : o < 4) (ho' : o' < 4) :
    tileCols X o ho = tileCols X o' ho' := by subst e; rfl

/-- The accumulator after tile s of a sample: reset and first tile, then one more tile per step. -/
def accChain (xS xT : Vec F S1x32x4096 .f32) : ℕ → Vec F S1x1 .f32
  | 0 => k0_pay2 (tileCols (Lm xS xT) 0 (by decide)) (tileCols (Rm xS xT) 0 (by decide)) (k0_pay1 (FloatOps.ofBits .f32 0#32))
  | s + 1 => k0_pay2 (tileCols (Lm xS xT) ((s + 1) % 16 / 4) (by omega)) (tileCols (Rm xS xT) ((s + 1) % 4) (by omega))
      (accChain xS xT s)

end Cert.KernelIdeal.Inv

end
-- ==== Proof.Inv.lean ====
/-
  What the kernel's scratch buffers and output block hold after each grid point.

  The grid runs over samples n = 0..7 and, within a sample, over sixteen tiles s = 4·i + j in order. At a sample's
  first tile the two stacked matrices are written from the sample's blocks and stay unchanged for the other fifteen;
  the accumulator is reset there and afterwards gains one tile's sum per point; at the last tile the output block is
  written from it. Proved by induction on the point.
-/
import proofs.«158819_j85057532330632_2_alg».proof.Proof.InvDefs

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Inv

open Cert.KernelIdeal Cert.KernelIdeal.Gen Cert.KernelIdeal.Pieces

variable {F : FTy → Type} [FloatOps F]
variable (m : (ℓ : Loc nD τ sig) → Buf (Elt F) ℓ)

/-- After point t the scratch buffers hold sample t / 16's stacked matrices and the accumulator after tile t mod 16. -/
def InvAt (c : Dev nD) (t : Fin cfg0.N) : Prop :=
  (outsAt0 m c t.val t.isLt).2.1 = Lm (blkS m c (t.val / 16)) (blkT m c (t.val / 16))
    ∧ (outsAt0 m c t.val t.isLt).2.2.1 = Rm (blkS m c (t.val / 16)) (blkT m c (t.val / 16))
    ∧ (outsAt0 m c t.val t.isLt).2.2.2 = accChain (blkS m c (t.val / 16)) (blkT m c (t.val / 16)) (t.val % 16)

theorem pay2_congr {A A' B B' : Vec F S64x4096 .bf16} {Cc C' : Vec F S1x1 .f32} {o1 o1' o2 o2' : ℕ}
    (hA : A = A') (hB : B = B') (hC : Cc = C') (h1 : o1 = o1') (h2 : o2 = o2') (p1 : o1 < 4) (p1' : o1' < 4) (p2 : o2 < 4) (p2' : o2' < 4) :
    k0_pay2 (tileCols A o1 p1) (tileCols B o2 p2) Cc = k0_pay2 (tileCols A' o1' p1') (tileCols B' o2' p2') C' := by
  subst hA hB hC h1 h2; rfl

/-- The first tile of a sample. -/
theorem inv_first (c : Dev nD) (t : Fin cfg0.N) (h0 : t.val % 16 = 0) : InvAt m c t := by
  have h1 : ¬ t.val % 16 = 15 := by omega
  obtain ⟨k1, k2⟩ := coords12 t
  have e := outsAt0_A m c t h0 h1
  have sL : Lm (iblk m c 0 t) (iblk m c 1 t) = Lm (blkS m c (t.val / 16)) (blkT m c (t.val / 16)) := congrArg₂ Lm (iblk0_eq m c t) (iblk1_eq m c t)
  have sR : Rm (iblk m c 0 t) (iblk m c 1 t) = Rm (blkS m c (t.val / 16)) (blkT m c (t.val / 16)) := congrArg₂ Rm (iblk0_eq m c t) (iblk1_eq m c t)
  have s0 := sA0 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (fun hh => h1 ((hcond0_1 t).mp hh)) (iblk m c 0 t) (iblk m c 1 t)
  have e1 := congrArg (fun p => p.2.1) e
  dsimp only at e1
  have c1 : (outsAt0 m c t.val t.isLt).2.1 = Lm (blkS m c (t.val / 16)) (blkT m c (t.val / 16)) := e1.trans (s0.trans sL)
  have s1 := sA1 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (fun hh => h1 ((hcond0_1 t).mp hh)) (iblk m c 0 t) (iblk m c 1 t)
  have e2 := congrArg (fun p => p.2.2.1) e
  dsimp only at e2
  have c2 : (outsAt0 m c t.val t.isLt).2.2.1 = Rm (blkS m c (t.val / 16)) (blkT m c (t.val / 16)) := e2.trans (s1.trans sR)
  have s2 := sA2 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (fun hh => h1 ((hcond0_1 t).mp hh)) (iblk m c 0 t) (iblk m c 1 t)
  have e3 := congrArg (fun p => p.2.2.2) e
  dsimp only at e3
  have a3 : k0_pay2 (tileCols (Lm (iblk m c 0 t) (iblk m c 1 t)) ((grid0.coords t) 1).val ((grid0.coords t) 1).isLt)
      (tileCols (Rm (iblk m c 0 t) (iblk m c 1 t)) ((grid0.coords t) 2).val ((grid0.coords t) 2).isLt) (k0_pay1 (FloatOps.ofBits .f32 0#32))
      = accChain (blkS m c (t.val / 16)) (blkT m c (t.val / 16)) 0 :=
    pay2_congr sL sR rfl (k1.trans (by omega : t.val % 16 / 4 = 0)) (k2.trans (by omega : t.val % 4 = 0)) _ _ _ _
  have c3 : (outsAt0 m c t.val t.isLt).2.2.2 = accChain (blkS m c (t.val / 16)) (blkT m c (t.val / 16)) (t.val % 16) := by
    rw [h0]; exact e3.trans (s2.trans a3)
  exact ⟨c1, c2, c3⟩

set_option maxHeartbeats 1000000 in
/-- A later tile, from the tile before. -/
theorem inv_step (c : Dev nD) (t : Fin cfg0.N) (h0 : ¬ t.val % 16 = 0)
    (ih : InvAt m c ⟨t.val - 1, Nat.lt_of_le_of_lt (Nat.sub_le _ _) t.isLt⟩) : InvAt m c t := by
  obtain ⟨k1, k2⟩ := coords12 t
  obtain ⟨ih1, ih2, ih3⟩ := ih
  have hd : (t.val - 1) / 16 = t.val / 16 := by omega
  have hs : t.val % 16 = (t.val - 1) % 16 + 1 := by omega
  have eL : (outsAt0 m c (t.val - 1) (Nat.lt_of_le_of_lt (Nat.sub_le _ _) t.isLt)).2.1 = Lm (blkS m c (t.val / 16)) (blkT m c (t.val / 16)) :=
    ih1.trans (by show Lm (blkS m c ((t.val - 1) / 16)) (blkT m c ((t.val - 1) / 16)) = _; rw [hd])
  have eR : (outsAt0 m c (t.val - 1) (Nat.lt_of_le_of_lt (Nat.sub_le _ _) t.isLt)).2.2.1 = Rm (blkS m c (t.val / 16)) (blkT m c (t.val / 16)) :=
    ih2.trans (by show Rm (blkS m c ((t.val - 1) / 16)) (blkT m c ((t.val - 1) / 16)) = _; rw [hd])
  have eA : (outsAt0 m c (t.val - 1) (Nat.lt_of_le_of_lt (Nat.sub_le _ _) t.isLt)).2.2.2 = accChain (blkS m c (t.val / 16)) (blkT m c (t.val / 16)) ((t.val - 1) % 16) :=
    ih3.trans (by show accChain (blkS m c ((t.val - 1) / 16)) (blkT m c ((t.val - 1) / 16)) ((t.val - 1) % 16) = _; rw [hd])
  have hacc : k0_pay2 (tileCols (outsAt0 m c (t.val - 1) (Nat.lt_of_le_of_lt (Nat.sub_le _ _) t.isLt)).2.1 ((grid0.coords t) 1).val ((grid0.coords t) 1).isLt)
        (tileCols (outsAt0 m c (t.val - 1) (Nat.lt_of_le_of_lt (Nat.sub_le _ _) t.isLt)).2.2.1 ((grid0.coords t) 2).val ((grid0.coords t) 2).isLt)
        (outsAt0 m c (t.val - 1) (Nat.lt_of_le_of_lt (Nat.sub_le _ _) t.isLt)).2.2.2
      = accChain (blkS m c (t.val / 16)) (blkT m c (t.val / 16)) (t.val % 16) := by
    rw [hs]
    exact pay2_congr eL eR eA (k1.trans (by omega : t.val % 16 / 4 = ((t.val - 1) % 16 + 1) % 16 / 4))
      (k2.trans (by omega : t.val % 4 = ((t.val - 1) % 16 + 1) % 4)) _ _ _ _
  by_cases h1 : t.val % 16 = 15
  · have e := outsAt0_C m c t h0 h1
    refine ⟨(congrArg (fun p => p.2.1) e).trans eL, (congrArg (fun p => p.2.2.1) e).trans eR, (congrArg (fun p => p.2.2.2) e).trans ?_⟩
    exact (sC2 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun hh => h0 ((hcond0_0 t).mp hh)) ((hcond0_1 t).mpr h1) (iblk m c 0 t) (iblk m c 1 t) _ _ _).trans hacc
  · have e := outsAt0_B m c t h0 h1
    refine ⟨(congrArg (fun p => p.2.1) e).trans eL, (congrArg (fun p => p.2.2.1) e).trans eR, (congrArg (fun p => p.2.2.2) e).trans ?_⟩
    exact (sB2 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun hh => h0 ((hcond0_0 t).mp hh)) (fun hh => h1 ((hcond0_1 t).mp hh)) (iblk m c 0 t) (iblk m c 1 t) _ _ _).trans hacc

/-- At every point, by induction on the point. -/
theorem outsAt_inv (c : Dev nD) : ∀ (n : ℕ) (t : Fin cfg0.N), t.val = n → InvAt m c t
  | 0, t, ht => inv_first m c t (by omega)
  | n + 1, t, ht => by
    by_cases h0 : t.val % 16 = 0
    · exact inv_first m c t h0
    · exact inv_step m c t h0 (outsAt_inv c n ⟨t.val - 1, Nat.lt_of_le_of_lt (Nat.sub_le _ _) t.isLt⟩ (by show t.val - 1 = n; omega))

set_option maxHeartbeats 1000000 in
/-- At a sample's last tile the output block is written from the accumulator as that point leaves it. -/
theorem out_at_last (c : Dev nD) (t : Fin cfg0.N) (h1 : t.val % 16 = 15) :
    (outsAt0 m c t.val t.isLt).1 = k0_pay3 ((outsAt0 m c t.val t.isLt).2.2.2) := by
  have h0 : ¬ t.val % 16 = 0 := by omega
  rw [outsAt0_C m c t h0 h1]
  exact (oC2 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun hh => h0 ((hcond0_0 t).mp hh)) ((hcond0_1 t).mpr h1) (iblk m c 0 t) (iblk m c 1 t) _ _ _).trans
    (congrArg k0_pay3 (sC2 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun hh => h0 ((hcond0_0 t).mp hh)) ((hcond0_1 t).mpr h1) (iblk m c 0 t) (iblk m c 1 t) _ _ _).symm)

end Cert.KernelIdeal.Inv

end
-- ==== Proof.FinalDefs.lean ====
/-
  The output array the kernel leaves and the host lines after the region, as functions.
-/
import proofs.«158819_j85057532330632_2_alg».proof.Proof.InvDefs

noncomputable section

open Idealize.ShloMosaic Idealize.ShloMosaic.TcCoe Idealize.SL.Sem Idealize.ShloMosaic.ValueIdx

namespace Cert.KernelIdeal.Final

open Cert.KernelIdeal Cert.KernelIdeal.Gen Cert.KernelIdeal.Pieces Cert.KernelIdeal.Inv

variable {F : FTy → Type} [FloatOps F]
variable (m : (ℓ : Loc nD τ sig) → Buf (Elt F) ℓ)

/-- The output array after the run: row r, lane l holds entry (r mod 8, l) of the block written from sample r / 8's
    accumulator after its last tile. -/
def G (c : Dev nD) : S64x128.Idx → Elt F .f32 := fun i =>
  k0_pay3 (accChain (blkS m c ((i 0).val / 8)) (blkT m c ((i 0).val / 8)) 15)
    (ix2 (n0 := 8) (n1 := 128) ⟨(i 0).val % 8, Nat.mod_lt _ (by decide)⟩ ⟨(i 1).val, (i 1).isLt⟩)

/-- The host lines after the region: the sum of the array, divided by 4096², by 2 and by 4. -/
def tail (X : S64x128.Idx → Elt F .f32) : S_.Idx → Elt F .f32 :=
  Host.divf (Host.divf (Host.divf (Host.reduceAdd X (constant (F := F) S_ .f32 0x00000000#32) reducesTo_S64x128_S_d0_1 h_S_)
    (constant (F := F) S_ .f32 0x4B800000#32)) (constant (F := F) S_ .f32 0x40000000#32)) (constant (F := F) S_ .f32 0x40800000#32)

end Cert.KernelIdeal.Final

end
-- ==== Proof.Final.lean ====
/-
  The kernel program's result, as a function of the arrays the region finds.

  Output block n (rows 8n … 8n + 7 of the [64, 128] array) is written back once, after sample n's last tile, from the
  accumulator; the eight blocks tile the array. The host lines after the region sum the array and divide three times.
-/
import proofs.«158819_j85057532330632_2_alg».proof.Proof.Inv
import proofs.«158819_j85057532330632_2_alg».proof.Proof.FinalDefs
import Idealize.ShloMosaic.Lib.StableHlo.Run

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Final

open Cert.KernelIdeal Cert.KernelIdeal.Gen Cert.KernelIdeal.Pieces Cert.KernelIdeal.Inv

variable {F : FTy → Type} [FloatOps F]
variable (m : (ℓ : Loc nD τ sig) → Buf (Elt F) ℓ) (ρ : Dev nD → PrngReg)

/-- The output window's block index at point t: sample t / 16, lane block 0. -/
theorem idx_facts2 : ∀ t : Fin cfg0.N, win0_2.index t (0 : Fin 2) = t.val / 16 ∧ win0_2.index t (1 : Fin 2) = 0 :=
  (by decide +kernel : ∀ t : Fin grid0.N, _)

/-- What a write-back writes is its block of G. -/
theorem flushed_eq (c : Dev nD) (t : Fin cfg0.N) (hf : (cfg0.win 2).flush t = true) :
    (dats m 0 c).flushed 2 t = ((cfg0.win 2).blk t).view.read (Elt F) (G m c) := by
  have h15 : t.val % 16 = 15 := (flush0_2 t).mp hf
  obtain ⟨e0, e1⟩ := idx_facts2 t
  have hN : t.val < 128 := lt_of_lt_of_eq t.isLt (show cfg0.N = 128 from N_0)
  show (cfg0.win 2).cut (grid0.coords t) ((dats m 0 c).after 2 t) = _
  rw [after0_2, out_at_last m c t h15, (outsAt_inv m c t.val t rfl).2.2, h15]
  funext j
  rw [View.read_apply]
  have hj0 : (j 0).val < 8 := (j 0).isLt
  have hj1 : (j 1).val < 128 := (j 1).isLt
  have hE0 : ((((cfg0.win 2).blk t).view.emb j) 0).val = win0_2.index t (0 : Fin 2) * 8 + 1 * (j 0).val := rfl
  have hE1 : ((((cfg0.win 2).blk t).view.emb j) 1).val = win0_2.index t (1 : Fin 2) * 128 + 1 * (j 1).val := rfl
  have a0 : ((((cfg0.win 2).blk t).view.emb j) 0).val / 8 = t.val / 16 := by omega
  unfold G
  rw [a0]
  refine congrArg (k0_pay3 _) (funext fun a => Fin.ext ?_)
  match a with
  | ⟨0, _⟩ => show (j 0).val = ((((cfg0.win 2).blk t).view.emb j) 0).val % 8; omega
  | ⟨1, _⟩ => show (j 1).val = ((((cfg0.win 2).blk t).view.emb j) 1).val; omega

/-- An index of the array is in point t's block iff each coordinate is in the block's range on its axis. -/
theorem mem_blk (t : Fin cfg0.N) (i : S64x128.Idx) :
    i ∈ ((cfg0.win 2).blk t).view.set ↔ ∀ a : Fin 2, win0_2.index t a * S8x128.size a ≤ (i a).val ∧ (i a).val < win0_2.index t a * S8x128.size a + S8x128.size a := by
  show i ∈ ((View.whole main_v2).slice (win0_2.rect t)).set ↔ _
  rw [View.set_slice_whole, Rect.mem_set_unit]
  exact Iff.rfl

/-- The array after the run is G: the write-back after sample r / 8's last tile covers row r. -/
theorem final (c : Dev nD) : (dats m 0 c).arrAt 2 cfg0.N = G m c :=
  (dats m 0 c).arrAt_eq_of_cover 2 (G m c) (flushed_eq m c) fun i => by
    have h0 : (i 0).val < 64 := (i 0).isLt
    have h1 : (i 1).val < 128 := (i 1).isLt
    have hN : cfg0.N = 128 := N_0
    let t : Fin cfg0.N := ⟨16 * ((i 0).val / 8) + 15, by omega⟩
    obtain ⟨e0, e1⟩ := idx_facts2 t
    have e0' : win0_2.index t (0 : Fin 2) = (16 * ((i 0).val / 8) + 15) / 16 := e0
    refine ⟨t, (flush0_2 t).mpr (by show (16 * ((i 0).val / 8) + 15) % 16 = 15; omega), ?_⟩
    rw [mem_blk]
    intro a
    match a with
    | ⟨0, _⟩ => show win0_2.index t (0 : Fin 2) * 8 ≤ (i 0).val ∧ (i 0).val < win0_2.index t (0 : Fin 2) * 8 + 8; omega
    | ⟨1, _⟩ => show win0_2.index t (1 : Fin 2) * 128 ≤ (i 1).val ∧ (i 1).val < win0_2.index t (1 : Fin 2) * 128 + 128; omega

/-- The program's result buffer after the host lines. -/
theorem tail_eq (c : Dev nD) :
    Pipeline.afterTail₀ cfgs (dats m) 0 (V0 m) [hostOps1] c main_v6 = tail (G m c) := by
  unfold Pipeline.afterTail₀
  show StableHlo.after hostOps1 _ (Proc.devRef .tc main_v6) = _
  after_results
  rw [(Pipeline.withArrays_arr spec0 launch0.win.arr_inj c _ _ 2).trans (final m c)]
  rfl

/-- The run, read: the result at the tail of G, the arguments unchanged. -/
theorem run : θ_run defs (onTc (τ := τ) (main (F := F))) ⟨m, fun _ => 0, ρ⟩ fun r => ∀ c : Dev nD,
      r.2.mem ((c.tc : Thread nD τ).loc main_v6) = tail (G m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v6 (Pipeline.mem_restRefs_of main_v6 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.Final

end
-- ==== Proof.LibLayout.lean ====
/-
  Layout operations of small rank read at an index written by coordinates, and a row sum.

  A column vector `[a, 1]` made from a vector `[a]`, a column broadcast along the rows of a matrix `[a, b]`, and the
  sum of a matrix's rows by a reduction over its second axis: each read at `ix1` / `ix2` coordinates.
-/
import Idealize.ShloMosaic.Lib.Pipeline.Value
import Idealize.ShloMosaic.Lib.ValueIdx
import Idealize.ShloMosaic.Lib.ValueLayout
import Idealize.ShloMosaic.PureOps.Ideal.Laws

namespace Cert.LibLayout

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum over the second axis of a matrix of extended reals, read at row `n`: the row's sum. -/
theorem multiReduction_add_rows {a b : ℕ} (src : FVec Ideal ⟨2, ![a, b]⟩ .f32) (acc : BitVec 32)
    (h : (⟨2, ![a, b]⟩ : Shape).Reduces [1] ⟨1, ![a]⟩) (hφ : FKind.Formats FTy.f32) (hacc : acc = FKind.add.neutral FTy.f32 hφ)
    (n : Fin a) :
    multiReduction .add [1] ⟨1, ![a]⟩ src acc h hφ hacc (ix1 n) = ∑ k : Fin b, src (ix2 n k) := by
  refine (Ideal.multiReduction_add_single src acc h hφ hacc (ix1 n)).trans ?_
  refine Finset.sum_congr rfl fun k _ => ?_
  exact congrArg src (funext fun ax => Fin.ext (by match ax with | ⟨0, _⟩ => rfl | ⟨1, _⟩ => rfl))

/-- The maximum over the second axis of a matrix of extended reals, read at row `n`: the fold of `max` over the row
    from the accumulator's value. -/
theorem multiReduction_max_rows {a b : ℕ} (src : FVec Ideal ⟨2, ![a, b]⟩ .f32) (acc : BitVec 32)
    (h : (⟨2, ![a, b]⟩ : Shape).Reduces [1] ⟨1, ![a]⟩) (hφ : FKind.Formats FTy.f32) (hacc : acc = FKind.maximumf.neutral FTy.f32 hφ)
    (n : Fin a) :
    multiReduction .maximumf [1] ⟨1, ![a]⟩ src acc h hφ hacc (ix1 n)
      = (Finset.univ : Finset (Fin b)).fold max (Ideal.ofBits .f32 acc) (fun k => src (ix2 n k)) := by
  refine (Ideal.multiReduction_maximumf_single src acc h hφ hacc (ix1 n)).trans ?_
  refine congrArg (Finset.fold max (Ideal.ofBits .f32 acc) · Finset.univ) (funext fun k => ?_)
  exact congrArg src (funext fun ax => Fin.ext (by match ax with | ⟨0, _⟩ => rfl | ⟨1, _⟩ => rfl))

/-- The row sum and the row maximum with the accumulator's word and its proof spelt as a printed body spells them (the
    zero word; the `-∞` word), so that they rewrite a printed reduction where it stands. -/
theorem sum_rows_apply {a b : ℕ} (src : FVec Ideal ⟨2, ![a, b]⟩ .f32)
    (h : (⟨2, ![a, b]⟩ : Shape).Reduces [1] ⟨1, ![a]⟩) (hφ : FKind.Formats FTy.f32)
    (hacc : (0x00000000#32 : BitVec 32) = 0x00000000#32) (n : Fin a) :
    multiReduction .add [1] ⟨1, ![a]⟩ src 0x00000000#32 h hφ hacc (ix1 n) = ∑ k : Fin b, src (ix2 n k) :=
  multiReduction_add_rows src 0x00000000#32 h hφ hacc n

theorem max_rows_apply {a b : ℕ} (src : FVec Ideal ⟨2, ![a, b]⟩ .f32)
    (h : (⟨2, ![a, b]⟩ : Shape).Reduces [1] ⟨1, ![a]⟩) (hφ : FKind.Formats FTy.f32)
    (hacc : (0xFF800000#32 : BitVec 32) = 0xFF800000#32) (n : Fin a) :
    multiReduction .maximumf [1] ⟨1, ![a]⟩ src 0xFF800000#32 h hφ hacc (ix1 n)
      = (Finset.univ : Finset (Fin b)).fold max (Ideal.ofBits .f32 0xFF800000#32) (fun k => src (ix2 n k)) :=
  multiReduction_max_rows src 0xFF800000#32 h hφ hacc n

/-- A vector `[b]` laid as one row and repeated down the rows of `[a, b]` reads, at `(p, c)`, the vector at `c`
    (a bias added to every row). -/
theorem rowBias_apply {a b : ℕ} (v : (⟨1, ![b]⟩ : Shape).Idx → α) (h1 : (⟨1, ![b]⟩ : Shape).ShapeCasts ⟨2, ![1, b]⟩)
    (h2 : (⟨2, ![1, b]⟩ : Shape).Broadcasts ⟨2, ![a, b]⟩) (p : Fin a) (c : Fin b) :
    broadcastTo ⟨2, ![a, b]⟩ (shapeCast ⟨2, ![1, b]⟩ v h1) h2 (ix2 p c) = v (ix1 c) :=
  (broadcastTo_1b_ab_apply _ h2 p c).trans (shapeCast_a_1a_apply v h1 0 c)

/-- A matrix product of rows with rows (`A · Bᵀ`: the second axis of each operand contracted) into a zero accumulator,
    on the extended reals: entry `(p, q)` is the sum over `k` of `A[p, k] · B[q, k]`.  The record's own facts (one
    contracted axis of extent `K`; the free axes' coordinates) are hypotheses, closed at a literal record by
    `rfl` and by unfolding the index functions. -/
theorem matmul_rows_rows_apply {M K N : ℕ} {φ₁ φ₂ : FTy} (d : DotDims ⟨2, ![M, K]⟩ ⟨2, ![N, K]⟩ ⟨2, ![M, N]⟩)
    (hr : d.contr.rank = 1) (hs : d.contr.size ⟨0, by omega⟩ = K)
    (hlc : d.lhsContracting = [1]) (hrc : d.rhsContracting = [1])
    (hl0 : ∀ j k, (d.lhsIdx j k 0).val = (j 0).val) (hr0 : ∀ j k, (d.rhsIdx j k 0).val = (j 1).val)
    (prec : Option ContractPrecision) (lhs : FVec Ideal ⟨2, ![M, K]⟩ φ₁) (rhs : FVec Ideal ⟨2, ![N, K]⟩ φ₂) (p : Fin M) (q : Fin N) :
    matmul d prec lhs rhs (constant ⟨2, ![M, N]⟩ .f32 0x00000000#32) (ix2 p q) = ∑ k : Fin K, lhs (ix2 p k) * rhs (ix2 q k) := by
  refine (Ideal.matmul_constant_zero_apply d prec lhs rhs (ix2 p q)).trans ?_
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (d.lhsIdx_val_of_single hlc _ _).trans hk)
  have er : d.rhsIdx (ix2 p q) ((contrEquiv1 d K hr hs).symm k) = ix2 q k := funext fun a => Fin.ext (by
    match a with
    | ⟨0, _⟩ => exact hr0 _ _
    | ⟨1, _⟩ => exact (d.rhsIdx_val_of_single hrc _ _).trans hk)
  rw [el, er]

/-- A matrix product of rows with columns (`A · B`: the left operand's second axis against the right operand's first)
    into a zero accumulator, on the extended reals: entry `(p, q)` is the sum over `k` of `A[p, k] · B[k, q]`. -/
theorem matmul_rows_cols_apply {M K N : ℕ} {φ₁ φ₂ : FTy} (d : DotDims ⟨2, ![M, K]⟩ ⟨2, ![K, N]⟩ ⟨2, ![M, N]⟩)
    (hr : d.contr.rank = 1) (hs : d.contr.size ⟨0, by omega⟩ = K)
    (hlc : d.lhsContracting = [1]) (hrc : d.rhsContracting = [0])
    (hl0 : ∀ j k, (d.lhsIdx j k 0).val = (j 0).val) (hr1 : ∀ j k, (d.rhsIdx j k 1).val = (j 1).val)
    (prec : Option ContractPrecision) (lhs : FVec Ideal ⟨2, ![M, K]⟩ φ₁) (rhs : FVec Ideal ⟨2, ![K, N]⟩ φ₂) (p : Fin M) (q : Fin N) :
    matmul d prec lhs rhs (constant ⟨2, ![M, N]⟩ .f32 0x00000000#32) (ix2 p q) = ∑ k : Fin K, lhs (ix2 p k) * rhs (ix2 k q) := by
  refine (Ideal.matmul_constant_zero_apply d prec lhs rhs (ix2 p q)).trans ?_
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (d.lhsIdx_val_of_single hlc _ _).trans hk)
  have er : d.rhsIdx (ix2 p q) ((contrEquiv1 d K hr hs).symm k) = ix2 k q := funext fun a => Fin.ext (by
    match a with
    | ⟨0, _⟩ => exact (d.rhsIdx_val_of_single hrc _ _).trans hk
    | ⟨1, _⟩ => exact hr1 _ _)
  rw [el, er]

/-- A vector cut from `o` reads, at `j`, the source at `o + j`. -/
theorem slice1_eq {n0 m : Nat} (o : Nat) (X : (⟨1, ![n0]⟩ : Shape).Idx → α)
    (h : (⟨1, ![n0]⟩ : Shape).Slices ![o] ⟨1, ![m]⟩) (j : Fin m) :
    extractStridedSlice ⟨1, ![m]⟩ ![o] X h (ix1 j)
      = X (ix1 ⟨o + j.val, Nat.lt_of_lt_of_le (Nat.add_lt_add_left j.isLt o) (h.2 0)⟩) :=
  extractStridedSlice_apply _ _ _ _ _ (fun ax => by
    match ax with
    | ⟨0, _⟩ => rfl)

/-- A column `[a, 1]` read back as the vector `[a]`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A sum over 512 terms is the sum of its eight runs of 64. -/
theorem sum_512_eq_8x64 {M : Type*} [AddCommMonoid M] (f : Fin 512 → M) :
    ∑ r : Fin 512, f r = ∑ c : Fin 8, ∑ j : Fin 64, f ⟨64 * c.val + j.val, by omega⟩ := by
  have e := Equiv.sum_comp (finProdFinEquiv (m := 8) (n := 64)) (fun r : Fin (8 * 64) => f r)
  rw [show (∑ r : Fin 512, f r) = ∑ r : Fin (8 * 64), f r from rfl, ← e, Fintype.sum_prod_type]
  refine Finset.sum_congr rfl fun c _ => Finset.sum_congr rfl fun j _ => congrArg f (Fin.ext ?_)
  show j.val + 64 * c.val = 64 * c.val + j.val
  omega

/-- The same sum as an accumulation from zero of the eight runs, in order. -/
theorem sum_512_chunks {M : Type*} [AddCommMonoid M] (f : Fin 512 → M) :
    ∑ r : Fin 512, f r =
      0 + (∑ j : Fin 64, f ⟨0 + j.val, by omega⟩) + (∑ j : Fin 64, f ⟨64 + j.val, by omega⟩)
        + (∑ j : Fin 64, f ⟨128 + j.val, by omega⟩) + (∑ j : Fin 64, f ⟨192 + j.val, by omega⟩)
        + (∑ j : Fin 64, f ⟨256 + j.val, by omega⟩) + (∑ j : Fin 64, f ⟨320 + j.val, by omega⟩)
        + (∑ j : Fin 64, f ⟨384 + j.val, by omega⟩) + (∑ j : Fin 64, f ⟨448 + j.val, by omega⟩) := by
  rw [sum_512_eq_8x64, Fin.sum_univ_eight, zero_add]
  rfl

end Cert.LibLayout
-- ==== Proof.LibColSum.lean ====
/-
  A sum down the columns of a matrix, and a matrix product of columns with columns, read at coordinates.

  The reduction of an `[a, b]` matrix of extended reals over its FIRST axis, read at column `q`, is the sum of that column.
  A matrix product that contracts the first axis of both operands (`Aᵀ · B`) into a zero accumulator has entry `(p, q)`
  equal to the sum over `k` of `A[k, p] · B[k, q]`.
-/
import Idealize.ShloMosaic.Lib.Pipeline.Value
import Idealize.ShloMosaic.Lib.ValueIdx
import Idealize.ShloMosaic.PureOps.Ideal.Laws

namespace Cert.LibColSum

open Idealize.ShloMosaic Idealize.ShloMosaic.ValueIdx

/-- The sum over the first axis of a matrix of extended reals, read at column `q`: the column's sum. -/
theorem multiReduction_add_cols {a b : ℕ} (src : FVec Ideal ⟨2, ![a, b]⟩ .f32) (acc : BitVec 32)
    (h : (⟨2, ![a, b]⟩ : Shape).Reduces [0] ⟨1, ![b]⟩) (hφ : FKind.Formats FTy.f32) (hacc : acc = FKind.add.neutral FTy.f32 hφ)
    (q : Fin b) :
    multiReduction .add [0] ⟨1, ![b]⟩ src acc h hφ hacc (ix1 q) = ∑ k : Fin a, src (ix2 k q) := by
  refine (Ideal.multiReduction_add_single src acc h hφ hacc (ix1 q)).trans ?_
  refine Finset.sum_congr rfl fun k _ => ?_
  exact congrArg src (funext fun ax => Fin.ext (by match ax with | ⟨0, _⟩ => rfl | ⟨1, _⟩ => rfl))

/-- A matrix product of columns with columns (`Aᵀ · B`: the first axis of each operand contracted) into a zero
    accumulator, on the extended reals: entry `(p, q)` is the sum over `k` of `A[k, p] · B[k, q]`. The record's own
    facts are hypotheses, closed at a literal record by `rfl` and by unfolding the index functions. -/
theorem matmul_cols_cols_apply {M K N : ℕ} {φ₁ φ₂ : FTy} (d : DotDims ⟨2, ![K, M]⟩ ⟨2, ![K, N]⟩ ⟨2, ![M, N]⟩)
    (hr : d.contr.rank = 1) (hs : d.contr.size ⟨0, by omega⟩ = K)
    (hlc : d.lhsContracting = [0]) (hrc : d.rhsContracting = [0])
    (hl1 : ∀ j k, (d.lhsIdx j k 1).val = (j 0).val) (hr1 : ∀ j k, (d.rhsIdx j k 1).val = (j 1).val)
    (prec : Option ContractPrecision) (lhs : FVec Ideal ⟨2, ![K, M]⟩ φ₁) (rhs : FVec Ideal ⟨2, ![K, N]⟩ φ₂) (p : Fin M) (q : Fin N) :
    matmul d prec lhs rhs (constant ⟨2, ![M, N]⟩ .f32 0x00000000#32) (ix2 p q) = ∑ k : Fin K, lhs (ix2 k p) * rhs (ix2 k q) := by
  refine (Ideal.matmul_constant_zero_apply d prec lhs rhs (ix2 p q)).trans ?_
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 k p := funext fun a => Fin.ext (by
    match a with
    | ⟨0, _⟩ => exact (d.lhsIdx_val_of_single hlc _ _).trans hk
    | ⟨1, _⟩ => exact hl1 _ _)
  have er : d.rhsIdx (ix2 p q) ((contrEquiv1 d K hr hs).symm k) = ix2 k q := funext fun a => Fin.ext (by
    match a with
    | ⟨0, _⟩ => exact (d.rhsIdx_val_of_single hrc _ _).trans hk
    | ⟨1, _⟩ => exact hr1 _ _)
  rw [el, er]

end Cert.LibColSum
-- ==== Proof.LibReal.lean ====
/-
  Real numbers among the extended reals, and the operations that keep them real.
  Part 1, scalars. An extended real is a real number, +∞ or −∞. Over the reals the ring laws hold; at the infinities distributivity
  and cancellation fail. So an identity that needs those laws is proved for real values, and a computation is shown to
  stay among the reals: sums, differences, products, maxima and finite sums of reals are real; the logistic function
  1/(1 + e^(-x)) is real everywhere (it is 0 at −∞ and 1 at +∞); a quotient by a non-zero real is real; the inverse
  square root of a positive real is real.
  Part 2, arrays at the ideal values. An array is real when every entry is. The elementwise sum, difference, product
  and maximum of real arrays are real; so is any re-indexing of one (a broadcast, a reshape, a slice, a gather: each
  entry of the result is an entry of the operand); the logistic function of any array; the host's product of two real
  arrays (each entry a finite sum of products); its sum-reduction of a real array from a real initial value (the initial
  value plus a finite sum of entries); its scatter-add of real updates into a real operand (the operand's entry plus a
  finite sum of update entries); the quotient by an array of one non-zero real; the inverse square root of an array of
  positive reals; a selection between two real arrays. An array
  every entry of which passes jnp's `isfinite` test (|x| < +∞) is real.
-/
import Idealize.ShloMosaic.PureOps.Ideal
import Idealize.ShloMosaic.PureOps.Ideal.Laws
import Idealize.ShloMosaic.Lib.ValueIdx
import Mathlib.Data.EReal.Basic

noncomputable section

namespace Cert.LibReal

open Idealize.ShloMosaic

/-- `x` is a real number: neither infinity. -/
def IsReal (x : EReal) : Prop := ∃ r : ℝ, x = (r : EReal)

theorem isReal_coe (r : ℝ) : IsReal (r : EReal) := ⟨r, rfl⟩
theorem isReal_zero : IsReal 0 := ⟨0, rfl⟩
theorem isReal_one : IsReal 1 := ⟨1, rfl⟩

/-- A sum of two reals is real. -/
theorem IsReal.add {x y : EReal} (hx : IsReal x) (hy : IsReal y) : IsReal (x + y) := by
  obtain ⟨a, rfl⟩ := hx; obtain ⟨b, rfl⟩ := hy; exact ⟨a + b, (EReal.coe_add a b).symm⟩

/-- A difference of two reals is real. -/
theorem IsReal.sub {x y : EReal} (hx : IsReal x) (hy : IsReal y) : IsReal (x - y) := by
  obtain ⟨a, rfl⟩ := hx; obtain ⟨b, rfl⟩ := hy; exact ⟨a - b, (EReal.coe_sub a b).symm⟩

/-- A product of two reals is real. -/
theorem IsReal.mul {x y : EReal} (hx : IsReal x) (hy : IsReal y) : IsReal (x * y) := by
  obtain ⟨a, rfl⟩ := hx; obtain ⟨b, rfl⟩ := hy; exact ⟨a * b, (EReal.coe_mul a b).symm⟩

/-- The negative of a real is real. -/
theorem IsReal.neg {x : EReal} (hx : IsReal x) : IsReal (-x) := by
  obtain ⟨a, rfl⟩ := hx; exact ⟨-a, (EReal.coe_neg a).symm⟩

/-- The larger of two reals is real. -/
theorem IsReal.max {x y : EReal} (hx : IsReal x) (hy : IsReal y) : IsReal (max x y) := by
  obtain ⟨a, rfl⟩ := hx; obtain ⟨b, rfl⟩ := hy
  exact ⟨Max.max a b, (EReal.coe_strictMono.monotone.map_max).symm⟩

/-- A finite sum of reals is real. -/
theorem IsReal.sum {ι : Type} (s : Finset ι) (f : ι → EReal) (h : ∀ i ∈ s, IsReal (f i)) : IsReal (∑ i ∈ s, f i) := by
  classical
  induction s using Finset.induction_on with
  | empty => rw [Finset.sum_empty]; exact isReal_zero
  | insert a s ha ih =>
    rw [Finset.sum_insert ha]
    exact (h a (Finset.mem_insert_self a s)).add (ih fun i hi => h i (Finset.mem_insert_of_mem hi))

/-- The logistic function's value is a real number at every extended real. -/
theorem isReal_logistic (x : EReal) : IsReal (Ideal.logistic x) := by
  induction x using EReal.rec with
  | bot => rw [Ideal.logistic_bot]; exact isReal_zero
  | coe r => rw [Ideal.logistic_coe]; exact isReal_coe _
  | top => rw [Ideal.logistic_top]; exact isReal_one

/-- A real divided by a non-zero real is real. -/
theorem IsReal.div_coe {x : EReal} (hx : IsReal x) {y : ℝ} (hy : y ≠ 0) : IsReal (Ideal.div x (y : EReal)) := by
  rw [Ideal.div_coe hy]; exact hx.mul (isReal_coe _)

/-- The inverse square root of a positive real is real. -/
theorem isReal_rsqrt_pos {r : ℝ} (hr : 0 < r) : IsReal (Ideal.rsqrt (r : EReal)) := by
  rw [Ideal.rsqrt_coe, if_neg (not_lt.mpr hr.le), if_neg hr.ne']; exact isReal_coe _

/-- The scale-and-shift form of a normalisation is the centred form, over the reals:
    (g·r)·x + (b − m·(g·r)) = (g·(x − m))·r + b, by distributivity. -/
theorem norm_forms (g x m r b : ℝ) :
    ((g : EReal) * r) * x + ((b : EReal) - m * ((g : EReal) * r)) = ((g : EReal) * ((x : EReal) - m)) * r + b := by
  have h : (g * r) * x + (b - m * (g * r)) = (g * (x - m)) * r + b := by ring
  exact_mod_cast congrArg (fun t : ℝ => (t : EReal)) h

/-- The same for extended reals known to be real. -/
theorem norm_forms_of_isReal {g x m r b : EReal} (hg : IsReal g) (hx : IsReal x) (hm : IsReal m) (hr : IsReal r)
    (hb : IsReal b) : (g * r) * x + (b - m * (g * r)) = (g * (x - m)) * r + b := by
  obtain ⟨g, rfl⟩ := hg; obtain ⟨x, rfl⟩ := hx; obtain ⟨m, rfl⟩ := hm; obtain ⟨r, rfl⟩ := hr; obtain ⟨b, rfl⟩ := hb
  exact norm_forms g x m r b

/-! ## Non-negative and positive reals -/

/-- `x` is a non-negative real number. -/
def IsNonneg (x : EReal) : Prop := ∃ r : ℝ, 0 ≤ r ∧ x = (r : EReal)

/-- `x` is a positive real number. -/
def IsPos (x : EReal) : Prop := ∃ r : ℝ, 0 < r ∧ x = (r : EReal)

theorem IsNonneg.isReal {x : EReal} (h : IsNonneg x) : IsReal x := by obtain ⟨r, -, e⟩ := h; exact ⟨r, e⟩
theorem IsPos.isReal {x : EReal} (h : IsPos x) : IsReal x := by obtain ⟨r, -, e⟩ := h; exact ⟨r, e⟩
theorem isNonneg_zero : IsNonneg 0 := ⟨0, le_refl _, rfl⟩

/-- The square of a real is non-negative. -/
theorem IsReal.mul_self_nonneg {x : EReal} (hx : IsReal x) : IsNonneg (x * x) := by
  obtain ⟨a, rfl⟩ := hx; exact ⟨a * a, _root_.mul_self_nonneg a, (EReal.coe_mul a a).symm⟩

/-- A sum of two non-negative reals is non-negative. -/
theorem IsNonneg.add {x y : EReal} (hx : IsNonneg x) (hy : IsNonneg y) : IsNonneg (x + y) := by
  obtain ⟨a, ha, rfl⟩ := hx; obtain ⟨b, hb, rfl⟩ := hy; exact ⟨a + b, add_nonneg ha hb, (EReal.coe_add a b).symm⟩

/-- A finite sum of non-negative reals is non-negative. -/
theorem IsNonneg.sum {ι : Type} (s : Finset ι) (f : ι → EReal) (h : ∀ i ∈ s, IsNonneg (f i)) : IsNonneg (∑ i ∈ s, f i) := by
  classical
  induction s using Finset.induction_on with
  | empty => rw [Finset.sum_empty]; exact isNonneg_zero
  | insert a s ha ih =>
    rw [Finset.sum_insert ha]
    exact (h a (Finset.mem_insert_self a s)).add (ih fun i hi => h i (Finset.mem_insert_of_mem hi))

/-- A non-negative real divided by a positive real is non-negative. -/
theorem IsNonneg.div_coe {x : EReal} (hx : IsNonneg x) {y : ℝ} (hy : 0 < y) : IsNonneg (Ideal.div x (y : EReal)) := by
  obtain ⟨a, ha, rfl⟩ := hx
  rw [Ideal.div_coe hy.ne']
  exact ⟨a * (1 / y), mul_nonneg ha (one_div_pos.mpr hy).le, (EReal.coe_mul a (1 / y)).symm⟩

/-- A non-negative real plus a positive real is positive. -/
theorem IsNonneg.add_pos {x y : EReal} (hx : IsNonneg x) (hy : IsPos y) : IsPos (x + y) := by
  obtain ⟨a, ha, rfl⟩ := hx; obtain ⟨b, hb, rfl⟩ := hy
  exact ⟨a + b, add_pos_of_nonneg_of_pos ha hb, (EReal.coe_add a b).symm⟩

/-- The inverse square root of a positive real is a positive real. -/
theorem IsPos.rsqrt {x : EReal} (hx : IsPos x) : IsPos (Ideal.rsqrt x) := by
  obtain ⟨r, hr, rfl⟩ := hx
  rw [Ideal.rsqrt_coe, if_neg (not_lt.mpr hr.le), if_neg hr.ne']
  exact ⟨(Real.sqrt r)⁻¹, inv_pos.mpr (Real.sqrt_pos.mpr hr), rfl⟩

/-! ## The host's finiteness test -/

/-- jnp's `isfinite` on one value, `|x| < +∞` against the word 0x7F800000: where it holds the value is a real. -/
theorem isReal_of_abs_lt_inf (x : Ideal .f32)
    (h : FloatOps.cmpf .olt (FloatOps.hostAbsf x) (FloatOps.ofBits (F := Ideal) .f32 0x7F800000#32) = 1#1) : IsReal x := by
  have htop : Ideal.ofBits .f32 0x7F800000#32 = ⊤ := by simp [Ideal.ofBits, Ideal.ieee]
  have h' : Ideal.cmp .olt (max (x : EReal) (-(x : EReal))) (Ideal.ofBits .f32 0x7F800000#32) = 1#1 := h
  rw [htop] at h'
  unfold Ideal.cmp at h'
  induction x using EReal.rec with
  | bot => simp at h'
  | coe r => exact isReal_coe r
  | top => simp at h'

/-! ## Arrays -/

section Arrays
variable {s t : Shape} {φ : FTy}

/-- Every entry of the array is a real number. -/
def RealVec (v : FVec Ideal s φ) : Prop := ∀ i, IsReal (v i)

theorem RealVec.addf {x y : FVec Ideal s φ} (hx : RealVec x) (hy : RealVec y) : RealVec (addf x y) :=
  fun i => (hx i).add (hy i)
theorem RealVec.subf {x y : FVec Ideal s φ} (hx : RealVec x) (hy : RealVec y) : RealVec (subf x y) :=
  fun i => (hx i).sub (hy i)
theorem RealVec.mulf {x y : FVec Ideal s φ} (hx : RealVec x) (hy : RealVec y) : RealVec (mulf x y) :=
  fun i => (hx i).mul (hy i)
theorem RealVec.maximumf {x y : FVec Ideal s φ} (hx : RealVec x) (hy : RealVec y) : RealVec (maximumf x y) :=
  fun i => (hx i).max (hy i)

/-- A constant array of a bit pattern that denotes a real. -/
theorem realVec_constant (b : BitVec φ.bits) (hb : IsReal (Ideal.ofBits φ b)) : RealVec (constant (F := Ideal) s φ b) :=
  fun _ => hb

/-- Any re-indexing of a real array is real: each entry of the result is an entry of the operand. -/
theorem RealVec.reindex {x : FVec Ideal s φ} (hx : RealVec x) (g : t.Idx → s.Idx) : RealVec (fun j => x (g j) : FVec Ideal t φ) :=
  fun j => hx (g j)

theorem RealVec.broadcastInDim {x : FVec Ideal s φ} (hx : RealVec x) (dims : Fin s.rank → Fin t.rank)
    (h : s.BroadcastsInDim t dims) : RealVec (broadcastInDim t dims h x : FVec Ideal t φ) :=
  fun j => by unfold Idealize.ShloMosaic.broadcastInDim; exact hx _

theorem RealVec.shapeCast {x : FVec Ideal s φ} (hx : RealVec x) (h : s.ShapeCasts t) : RealVec (shapeCast t x h : FVec Ideal t φ) :=
  fun j => by unfold Idealize.ShloMosaic.shapeCast; exact hx _

theorem RealVec.extractStridedSlice {x : FVec Ideal s φ} (hx : RealVec x) (off : Fin s.rank → Nat) (h : s.Slices off t) :
    RealVec (extractStridedSlice t off x h : FVec Ideal t φ) :=
  fun j => by unfold Idealize.ShloMosaic.extractStridedSlice; exact hx _

theorem RealVec.gather {si : Shape} {w : Nat} {x : FVec Ideal s φ} (hx : RealVec x) (d : GatherDims s si t) (idx : IVec si w) :
    RealVec (Host.gather d x idx : FVec Ideal t φ) :=
  fun j => hx _

/-- The logistic function of any array is a real array. -/
theorem realVec_logistic (x : FVec Ideal s φ) : RealVec (logistic x) :=
  fun i => isReal_logistic (x i)

/-- The host's product of two real arrays is real. -/
theorem RealVec.dotGeneral {sl sr so : Shape} {φ₁ φ₂ : FTy} (d : DotDims sl sr so) (prec : Option ContractPrecision)
    {lhs : FVec Ideal sl φ₁} {rhs : FVec Ideal sr φ₂} (hl : RealVec lhs) (hr : RealVec rhs) :
    RealVec (Host.dotGeneral d prec lhs rhs) := fun j => by
  simp only [Host.dotGeneral]
  rw [Ideal.dotGeneral_apply]
  exact IsReal.sum _ _ fun k _ => (hl _).mul (hr _)

/-- The host's sum-reduction of a real array from a real initial value is real. -/
theorem RealVec.reduceAdd {axes : List (Fin s.rank)} {u : Shape} {x : FVec Ideal s φ} (hx : RealVec x)
    (init : u.Idx → Ideal φ) (hi : ∀ k, IsReal (init k)) (h : s.ReducesTo axes t) (hu : 0 < u.numel) :
    RealVec (Host.reduceAdd x init h hu : FVec Ideal t φ) := fun j => by
  show IsReal (Ideal.hostReduceAdd h x (init (Shape.Idx.first hu)) j)
  unfold Ideal.hostReduceAdd
  exact (hi _).add (IsReal.sum _ _ fun i _ => hx i)

/-- The host's scatter-add of real updates into a real operand is real. -/
theorem RealVec.scatterAdd {si su : Shape} {w : Nat} (d : ScatterDims s si su) {x : FVec Ideal s φ} (hx : RealVec x)
    (idx : IVec si w) {upd : FVec Ideal su φ} (hu : RealVec upd) : RealVec (Host.scatterAdd d x idx upd) := fun i => by
  show IsReal (Ideal.hostScatterAdd d x idx upd i)
  unfold Ideal.hostScatterAdd
  exact (hx i).add (IsReal.sum _ _ fun j _ => hu j)

/-- A real array divided, entry by entry, by an array of one non-zero real is real. -/
theorem RealVec.divf_const {x y : FVec Ideal s φ} (hx : RealVec x) {c : ℝ} (hc : c ≠ 0) (hy : ∀ i, y i = (c : EReal)) :
    RealVec (Host.divf x y) := fun i => by
  show IsReal (Ideal.div (x i) (y i))
  rw [hy i]; exact (hx i).div_coe hc

/-- The inverse square root of an array of positive reals is real. -/
theorem realVec_rsqrt_pos {x : FVec Ideal s φ} (hx : ∀ i, ∃ r : ℝ, 0 < r ∧ x i = (r : EReal)) : RealVec (Host.rsqrt x) := fun i => by
  obtain ⟨r, hr, e⟩ := hx i
  show IsReal (Ideal.rsqrt (x i))
  rw [e]; exact isReal_rsqrt_pos hr

/-- A selection between two real arrays is real. -/
theorem RealVec.select (c : IVec s 1) {a b : FVec Ideal s φ} (ha : RealVec a) (hb : RealVec b) :
    RealVec (select c a b : FVec Ideal s φ) := fun i => by
  show IsReal (Scalar.select (c i) (a i) (b i))
  unfold Scalar.select
  split
  · exact ha i
  · exact hb i

/-- An array every entry of which passes the host's finiteness test is real. -/
theorem realVec_of_finite_test (x : FVec Ideal s .f32)
    (h : ∀ i, FloatOps.cmpf .olt (FloatOps.hostAbsf (x i)) (FloatOps.ofBits (F := Ideal) .f32 0x7F800000#32) = 1#1) : RealVec x :=
  fun i => isReal_of_abs_lt_inf (x i) (h i)

end Arrays

end Cert.LibReal

end
-- ==== Proof.Gram.lean ====
/-
  Cosine-similarity (Gram) matrices of channel vectors, and their difference, on the extended reals.

  For an array X of C channels by P positions, each column is divided by its Euclidean norm plus a small positive
  constant ε; the Gram matrix of the result has entry (p, q) equal to the inner product of the normalised columns p and q.
  Two such matrices are subtracted. A program may instead stack the teacher's normalised rows above the student's, and
  the teacher's above the NEGATED student's, and contract over all 2C rows at once: the two agree when the student's
  normalised entries are real numbers, since then a sum of negated terms is the negated sum.
-/
import Idealize.ShloMosaic.PureOps.Ideal
import Idealize.ShloMosaic.PureOps.Ideal.Laws
import proofs.«158819_j85057532330632_2_alg».proof.Proof.LibReal

noncomputable section

namespace Cert.Gram

open Idealize.ShloMosaic Cert.LibReal

/-- The constant added to each norm: the 32-bit pattern nearest 1e-8. -/
abbrev eps : EReal := Ideal.ofBits .f32 0x322BCC77#32

/-- It is a positive real: 11258999 · 2⁻⁵⁰. -/
theorem eps_pos : IsPos eps := by
  refine ⟨(11258999 : ℝ) * (2 : ℝ) ^ (-50 : ℤ), by positivity, ?_⟩
  simp [eps, Ideal.ofBits, Ideal.ieee, -EReal.coe_mul]

/-- The square root of a non-negative real is a non-negative real. -/
theorem isNonneg_sqrt {x : EReal} (h : IsNonneg x) : IsNonneg (Ideal.sqrt x) := by
  obtain ⟨r, hr, rfl⟩ := h
  rw [Ideal.sqrt_coe, if_neg (not_lt.mpr hr)]
  exact ⟨Real.sqrt r, Real.sqrt_nonneg r, rfl⟩

/-- A real divided by a positive real is real. -/
theorem isReal_div_pos {x y : EReal} (hx : IsReal x) (hy : IsPos y) : IsReal (Ideal.div x y) := by
  obtain ⟨r, hr, rfl⟩ := hy
  exact hx.div_coe hr.ne'

/-- The coercion of a finite sum of reals is the sum of the coercions. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- For real u, v: Σ u·(0 − v) = −Σ u·v. -/
theorem sum_mul_zero_sub {ι : Type} [Fintype ι] (u v : ι → EReal) (hu : ∀ i, IsReal (u i)) (hv : ∀ i, IsReal (v i))
    (z : EReal) (hz : z = 0) : ∑ i, u i * (z - v i) = -(∑ i, u i * v i) := by
  subst hz
  choose a ha using hu
  choose b hb using hv
  simp only [ha, hb]
  have e1 : ∀ i, ((a i : EReal) * (0 - (b i : EReal))) = ((a i * (0 - b i) : ℝ) : EReal) := fun i => by
    rw [EReal.coe_mul, EReal.coe_sub, EReal.coe_zero]
  simp only [e1, ← EReal.coe_mul, ← coe_sum, ← EReal.coe_neg]
  congr 1
  rw [← Finset.sum_neg_distrib]
  exact Finset.sum_congr rfl fun i _ => by ring

variable {C P : ℕ}

/-- The norm of column p, plus ε. -/
def colNorm (X : Fin C → Fin P → EReal) (p : Fin P) : EReal := Ideal.sqrt (∑ c, X c p * X c p) + eps

/-- Entry (c, p) of the column-normalised array. -/
def unitCol (X : Fin C → Fin P → EReal) (c : Fin C) (p : Fin P) : EReal := Ideal.div (X c p) (colNorm X p)

/-- The similarity of positions p and q. -/
def gram (X : Fin C → Fin P → EReal) (p q : Fin P) : EReal := ∑ c, unitCol X c p * unitCol X c q

/-- The teacher's similarity minus the student's. -/
def simDiff (XS XT : Fin C → Fin P → EReal) (p q : Fin P) : EReal := gram XT p q - gram XS p q

theorem colNorm_pos {X : Fin C → Fin P → EReal} (hX : ∀ c p, IsReal (X c p)) (p : Fin P) : IsPos (colNorm X p) :=
  (isNonneg_sqrt (IsNonneg.sum _ _ fun c _ => (hX c p).mul_self_nonneg)).add_pos eps_pos

theorem unitCol_real {X : Fin C → Fin P → EReal} (hX : ∀ c p, IsReal (X c p)) (c : Fin C) (p : Fin P) :
    IsReal (unitCol X c p) := isReal_div_pos (hX c p) (colNorm_pos hX p)

/-- The stacked contraction: teacher·teacher plus student·(0 − student) is the difference of the similarities, when the
    student's entries are real. -/
theorem stacked {XS XT : Fin C → Fin P → EReal} (hS : ∀ c p, IsReal (XS c p)) (z : EReal) (hz : z = 0) (p q : Fin P) :
    (∑ c, unitCol XT c p * unitCol XT c q) + (∑ c, unitCol XS c p * (z - unitCol XS c q)) = simDiff XS XT p q := by
  rw [sum_mul_zero_sub _ _ (fun c => unitCol_real hS c p) (fun c => unitCol_real hS c q) z hz]
  unfold simDiff gram
  exact (sub_eq_add_neg _ _).symm

/-- A sum over 4096 positions is the sum of its four runs of 1024. -/
theorem sum_4096 {M : Type*} [AddCommMonoid M] (f : Fin 4096 → M) :
    ∑ r : Fin 4096, f r = ∑ i : Fin 4, ∑ a : Fin 1024, f ⟨1024 * i.val + a.val, by omega⟩ := by
  have e := Equiv.sum_comp (finProdFinEquiv (m := 4) (n := 1024)) (fun r : Fin (4 * 1024) => f r)
  rw [show (∑ r : Fin 4096, f r) = ∑ r : Fin (4 * 1024), f r from rfl, ← e, Fintype.sum_prod_type]
  refine Finset.sum_congr rfl fun c _ => Finset.sum_congr rfl fun j _ => congrArg f (Fin.ext ?_)
  show j.val + 1024 * c.val = 1024 * c.val + j.val
  omega

/-- A sum over the first sixteen naturals is a sum over a four-by-four grid, row by row. -/
theorem sum_range16 {M : Type*} [AddCommMonoid M] (g : ℕ → M) :
    ∑ s ∈ Finset.range 16, g s = ∑ i : Fin 4, ∑ j : Fin 4, g (4 * i.val + j.val) := by
  rw [Finset.sum_range]
  have e := Equiv.sum_comp (finProdFinEquiv (m := 4) (n := 4)) (fun r : Fin (4 * 4) => g r.val)
  rw [show (∑ r : Fin 16, g r.val) = ∑ r : Fin (4 * 4), g r.val from rfl, ← e, Fintype.sum_prod_type]
  refine Finset.sum_congr rfl fun c _ => Finset.sum_congr rfl fun j _ => congrArg g ?_
  show j.val + 4 * c.val = 4 * c.val + j.val
  omega

end Cert.Gram

end
-- ==== Proof.Payload.lean ====
/-
  The kernel body's arithmetic, read entry by entry on the extended reals.

  A block x of one sample is 32 channels by 4096 positions. The body divides each column by its norm plus ε (that is
  `Gram.unitCol`), stacks the teacher's and the student's normalised rows into two 64-row matrices (the second with the
  student's rows negated, written 0 − u), and per 1024 × 1024 tile contracts the two over the 64 rows, squares, and adds
  the tile's sum of squares to a running scalar; at a sample's last tile the scalar goes to entry (0, 0) of an
  8 × 128 block of zeros.
-/
import proofs.«158819_j85057532330632_2_alg».proof.Proof.Gen.KernelIdeal.Skeleton
import proofs.«158819_j85057532330632_2_alg».proof.Proof.LibLayout
import proofs.«158819_j85057532330632_2_alg».proof.Proof.LibColSum
import proofs.«158819_j85057532330632_2_alg».proof.Proof.Gram
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.ValueIdx

namespace Cert.KernelIdeal.Payload

open Cert.KernelIdeal Cert.KernelIdeal.Gen

/-- A sample's block as channels by positions. -/
abbrev blockOf (x : Vec Ideal S1x32x4096 .f32) : Fin 32 → Fin 4096 → EReal := fun c p => x (ix3 (0 : Fin 1) c p)

/-- The normalised block: each entry over its column's norm plus ε. -/
theorem pay4_apply (x : Vec Ideal S1x32x4096 .f32) (c : Fin 32) (p : Fin 4096) :
    k0_pay4 (F := Ideal) x (ix2 c p) = Gram.unitCol (blockOf x) c p := by
  unfold k0_pay4 Gram.unitCol Gram.colNorm
  dsimp only
  refine congrArg₂ Ideal.div (shapeCast_1ab_ab_apply x _ c p) ?_
  refine (broadcastTo_1b_ab_apply _ _ c p).trans ?_
  refine congrArg₂ (fun a b : EReal => a + b) (congrArg Ideal.sqrt ?_) rfl
  refine (shapeCast_a_1a_apply _ _ 0 p).trans ?_
  refine (LibColSum.multiReduction_add_cols _ _ _ _ _ p).trans ?_
  refine Finset.sum_congr rfl fun k _ => ?_
  exact congrArg₂ (fun a b : EReal => a * b) (shapeCast_1ab_ab_apply x _ k p) (shapeCast_1ab_ab_apply x _ k p)

theorem pay5_eq (x : Vec Ideal S1x32x4096 .f32) : k0_pay5 (F := Ideal) x = k0_pay4 (F := Ideal) x := rfl

theorem pay6_eq (x : Vec Ideal S1x32x4096 .f32) : k0_pay6 (F := Ideal) x = k0_pay4 (F := Ideal) x :=
  (shapeCast_self (k0_pay5 (F := Ideal) x) shapeCasts_S32x4096_S32x4096).trans (pay5_eq x)
theorem pay7_eq (x : Vec Ideal S1x32x4096 .f32) : k0_pay7 (F := Ideal) x = k0_pay4 (F := Ideal) x :=
  shapeCast_self (k0_pay4 (F := Ideal) x) shapeCasts_S32x4096_S32x4096
theorem pay8_eq (x : Vec Ideal S1x32x4096 .f32) : k0_pay8 (F := Ideal) x = k0_pay4 (F := Ideal) x :=
  (shapeCast_self (k0_pay5 (F := Ideal) x) shapeCasts_S32x4096_S32x4096).trans (pay5_eq x)

/-- The bf16 zero word denotes 0. -/
theorem ofBits_zero_bf16 : Ideal.ofBits .bf16 0x0000#16 = 0 := by simp [Ideal.ofBits, Ideal.ieee]

/-- The negated block: zero minus the normalised entry. -/
theorem pay9_apply (x : Vec Ideal S1x32x4096 .f32) (j : S32x4096.Idx) :
    k0_pay9 (F := Ideal) x j = Ideal.ofBits .bf16 0x0000#16 - k0_pay4 (F := Ideal) x j := by
  unfold k0_pay9; (try dsimp only); rw [shapeCast_self]; rfl

theorem hl1 (j : S1024x1024.Idx) (k : dot_S64x1024_S64x1024_S1024x1024_0_0_1_1_n_n.contr.Idx) :
    (dot_S64x1024_S64x1024_S1024x1024_0_0_1_1_n_n.lhsIdx j k 1).val = (j 0).val := by
  unfold DotDims.lhsIdx
  rw [dif_neg (show ¬(1 : Fin S64x1024.rank) ∈ dot_S64x1024_S64x1024_S1024x1024_0_0_1_1_n_n.lhsBatch by decide),
    dif_pos (show (1 : Fin S64x1024.rank) ∈ dot_S64x1024_S64x1024_S1024x1024_0_0_1_1_n_n.lhsNonContracting by decide)]
  rfl
theorem hr1 (j : S1024x1024.Idx) (k : dot_S64x1024_S64x1024_S1024x1024_0_0_1_1_n_n.contr.Idx) :
    (dot_S64x1024_S64x1024_S1024x1024_0_0_1_1_n_n.rhsIdx j k 1).val = (j 1).val := by
  unfold DotDims.rhsIdx
  rw [dif_neg (show ¬(1 : Fin S64x1024.rank) ∈ dot_S64x1024_S64x1024_S1024x1024_0_0_1_1_n_n.rhsBatch by decide),
    dif_pos (show (1 : Fin S64x1024.rank) ∈ dot_S64x1024_S64x1024_S1024x1024_0_0_1_1_n_n.rhsNonContracting by decide)]
  rfl

/-- One tile's contribution: the sum over the tile of the squared contraction of the two 64-row column tiles. -/
def tileSum (u v : Vec Ideal S64x1024 .bf16) : EReal :=
  ∑ a : Fin 1024, ∑ b : Fin 1024, (∑ k : Fin 64, u (ix2 k a) * v (ix2 k b)) * (∑ k : Fin 64, u (ix2 k a) * v (ix2 k b))

/-- The accumulator's update: what it held plus the tile's sum. -/
theorem pay2_apply (v13 v15 : Vec Ideal S64x1024 .bf16) (v22 : Vec Ideal S1x1 .f32) (j : S1x1.Idx) :
    k0_pay2 (F := Ideal) v13 v15 v22 j = v22 j + tileSum v13 v15 := by
  obtain rfl : j = ix2 (0 : Fin 1) (0 : Fin 1) := by
    have h0 : (j 0).val < 1 := (j 0).isLt
    have h1 : (j 1).val < 1 := (j 1).isLt
    exact (eq_ix2 j).trans (congrArg₂ ix2 (Fin.ext (by show (j 0).val = 0; omega)) (Fin.ext (by show (j 1).val = 0; omega)))
  unfold k0_pay2 tileSum
  dsimp only
  refine (congrFun (shapeCast_self _ _) _).trans ?_
  refine congrArg (fun t : EReal => v22 (ix2 (0 : Fin 1) (0 : Fin 1)) + t) ?_
  refine (shapeCast_a_1a_apply _ _ 0 0).trans ?_
  refine (LibColSum.multiReduction_add_cols _ _ _ _ _ 0).trans ?_
  refine Finset.sum_congr rfl fun a _ => ?_
  refine (LibLayout.shapeCast_a_a1_apply _ _ a 0).trans ?_
  refine (LibLayout.multiReduction_add_rows _ _ _ _ _ a).trans ?_
  refine Finset.sum_congr rfl fun b _ => ?_
  have e := LibColSum.matmul_cols_cols_apply (φ₁ := .bf16) (φ₂ := .bf16) dot_S64x1024_S64x1024_S1024x1024_0_0_1_1_n_n rfl rfl rfl rfl hl1 hr1 none v13 v15 a b
  exact congrArg₂ (fun s t : EReal => s * t) e e

/-- The output block: the scalar at entry (0, 0), zero elsewhere. -/
theorem pay3_apply (v36 : Vec Ideal S1x1 .f32) (r : Fin 8) (l : Fin 128) :
    k0_pay3 (F := Ideal) v36 (ix2 r l) = if r.val = 0 ∧ l.val = 0 then v36 (ix2 (0 : Fin 1) (0 : Fin 1)) else 0 := by
  unfold k0_pay3
  dsimp only
  have hb : broadcastTo S8x128 (shapeCast S1x1 v36 shapeCasts_S1x1_S1x1) broadcasts_S1x1_S8x128 (ix2 r l) = v36 (ix2 (0 : Fin 1) (0 : Fin 1)) :=
    (broadcastTo_apply _ _ (ix2 r l) (ix2 (0 : Fin 1) (0 : Fin 1)) (fun ax => by
      match ax with
      | ⟨0, _⟩ => show (0 : ℕ) = if (1 : ℕ) = 1 then 0 else r.val; rw [if_pos rfl]
      | ⟨1, _⟩ => show (0 : ℕ) = if (1 : ℕ) = 1 then 0 else l.val; rw [if_pos rfl])).trans (congrFun (shapeCast_self _ _) _)
  rw [select_apply, hb]
  have hr : r.val < 8 := r.isLt
  have hl : l.val < 128 := l.isLt
  show Scalar.select (IntOp.andi (IntOp.cmpi .eq (iota .tc S8x128 32 [0] iota_S8x128_d0_w32 (ix2 r l)) 0#32)
      (IntOp.cmpi .eq (iota .tc S8x128 32 [1] iota_S8x128_d1_w32 (ix2 r l)) 0#32)) _ (Ideal.ofBits .f32 0x00000000#32) = _
  rw [iota_single_apply, iota_single_apply, Ideal.ofBits_zero_f32]
  show Scalar.select (IntOp.andi (IntOp.cmpi .eq (BitVec.ofNat 32 r.val) 0#32) (IntOp.cmpi .eq (BitVec.ofNat 32 l.val) 0#32)) _ 0 = _
  by_cases h0 : r.val = 0
  · by_cases h1 : l.val = 0
    · rw [if_pos ⟨h0, h1⟩, h0, h1]; rfl
    · rw [if_neg (fun h => h1 h.2)]
      have hne : BitVec.ofNat 32 l.val ≠ 0#32 := by
        intro h; have := congrArg BitVec.toNat h; simp at this; omega
      have : IntOp.cmpi .eq (BitVec.ofNat 32 l.val) 0#32 = 0#1 := by
        show BitVec.ofBool (BitVec.ofNat 32 l.val == 0#32) = 0#1
        rw [beq_eq_false_iff_ne.mpr hne]; rfl
      rw [this, show IntOp.andi (IntOp.cmpi .eq (BitVec.ofNat 32 r.val) 0#32) 0#1 = 0#1 from by unfold IntOp.andi; exact BitVec.and_zero, select_zero]
  · rw [if_neg (fun h => h0 h.1)]
    have hne : BitVec.ofNat 32 r.val ≠ 0#32 := by
      intro h; have := congrArg BitVec.toNat h; simp at this; omega
    have : IntOp.cmpi .eq (BitVec.ofNat 32 r.val) 0#32 = 0#1 := by
      show BitVec.ofBool (BitVec.ofNat 32 r.val == 0#32) = 0#1
      rw [beq_eq_false_iff_ne.mpr hne]; rfl
    rw [this, show IntOp.andi 0#1 (IntOp.cmpi .eq (BitVec.ofNat 32 l.val) 0#32) = 0#1 from by unfold IntOp.andi; exact BitVec.zero_and, select_zero]

end Cert.KernelIdeal.Payload

end
-- ==== Proof.Flat.lean ====
/-
  The five-axis arrays [2, 4, 32, 64, 64] read as eight samples of 32 channels by 4096 positions.

  Sample n = 4·b + l, channel c, position p = 64·h + w sit at the five-axis index (b, l, c, h, w); a row-major reshape to
  [8, 32, 4096] reads that entry at (n, c, p). A sum over a rank-3 index set is the triple sum over its coordinates.
-/
import Idealize.ShloMosaic.Lib.Pipeline.Value
import Idealize.ShloMosaic.Lib.ValueIdx

namespace Cert.Flat

open Idealize.ShloMosaic Idealize.ShloMosaic.ValueIdx

/-- Where entry (n, c, p) of the eight-sample reading sits in the five-axis array. -/
abbrev p5 (n : Fin 8) (c : Fin 32) (p : Fin 4096) : (⟨5, ![2, 4, 32, 64, 64]⟩ : Shape).Idx :=
  ix5 (n0 := 2) (n1 := 4) (n2 := 32) (n3 := 64) (n4 := 64) ⟨n.val / 4, by omega⟩ ⟨n.val % 4, by omega⟩ c ⟨p.val / 64, by omega⟩ ⟨p.val % 64, by omega⟩

/-- The row-major reshape to [8, 32, 4096] reads (n, c, p) there. -/
theorem reshape3_apply {α : Type} (x : (⟨5, ![2, 4, 32, 64, 64]⟩ : Shape).Idx → α)
    (h : (⟨5, ![2, 4, 32, 64, 64]⟩ : Shape).ShapeCasts ⟨3, ![8, 32, 4096]⟩) (n : Fin 8) (c : Fin 32) (p : Fin 4096) :
    shapeCast ⟨3, ![8, 32, 4096]⟩ x h (ix3 n c p) = x (p5 n c p) :=
  shapeCast_apply x h _ _ (by
    rw [Shape.rowMajor_val_five, Shape.rowMajor_val_three]
    show ((((n.val / 4) * 4 + n.val % 4) * 32 + c.val) * 64 + p.val / 64) * 64 + p.val % 64 = (n.val * 32 + c.val) * 4096 + p.val
    omega)

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun t := ix3 t.1 t.2.1 t.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

end Cert.Flat
-- ==== Proof.Spec.lean ====
/-
  The loss both programs compute, as one function of the two five-axis arrays: per sample the difference of the
  teacher's and the student's similarity matrices, squared and summed over all samples and position pairs, then divided
  by 4096², by 2 and by 4 (the three divisors as the 32-bit patterns the programs spell).
-/
import proofs.«158819_j85057532330632_2_alg».proof.Proof.Gram
import proofs.«158819_j85057532330632_2_alg».proof.Proof.Flat

noncomputable section

namespace Cert.Spec

open Idealize.ShloMosaic

abbrev Arr : Type := (⟨5, ![2, 4, 32, 64, 64]⟩ : Shape).Idx → EReal

/-- Sample n of an array: channels by positions. -/
def sample (x : Arr) (n : Fin 8) : Fin 32 → Fin 4096 → EReal := fun c p => x (Flat.p5 n c p)

/-- The squared similarity difference summed over samples and position pairs. -/
def total (xS xT : Arr) : EReal :=
  ∑ n : Fin 8, ∑ p : Fin 4096, ∑ q : Fin 4096,
    Gram.simDiff (sample xS n) (sample xT n) p q * Gram.simDiff (sample xS n) (sample xT n) p q

/-- The loss. -/
def loss (xS xT : Arr) : EReal :=
  Ideal.div (Ideal.div (Ideal.div (total xS xT) (Ideal.ofBits .f32 0x4B800000#32)) (Ideal.ofBits .f32 0x40000000#32))
    (Ideal.ofBits .f32 0x40800000#32)

end Cert.Spec

end
-- ==== Proof.KValue.lean ====
/-
  The accumulator's chain of tile sums, on the extended reals, is the sample's whole sum of squared similarity differences.

  Row k of the left stacked matrix is the teacher's normalised row k for k < 32 and the student's row k − 32 otherwise;
  the right one has 0 − (student's entry) in its lower half. So the contraction over the 64 rows at columns (P, Q) is
  gram_T(P, Q) + Σ u_S(c, P)·(0 − u_S(c, Q)) = gram_T(P, Q) − gram_S(P, Q) when the student's entries are real. The
  sixteen tiles (i, j) of 1024 × 1024 partition the 4096 × 4096 position pairs, so the sixteen tile sums add up to the
  sum over all pairs.
-/
import proofs.«158819_j85057532330632_2_alg».proof.Proof.InvDefs
import proofs.«158819_j85057532330632_2_alg».proof.Proof.Payload
import proofs.«158819_j85057532330632_2_alg».proof.Proof.Spec

noncomputable section

open Idealize.ShloMosaic Idealize.ShloMosaic.ValueIdx

namespace Cert.KernelIdeal.KValue

open Cert.KernelIdeal Cert.KernelIdeal.Gen Cert.KernelIdeal.Pieces Cert.KernelIdeal.Inv Cert.KernelIdeal.Payload Cert Cert.LibReal

/-- The bf16 zero the negation subtracts from. -/
abbrev z : EReal := Ideal.ofBits .bf16 0x0000#16

variable (xS xT : Vec Ideal S1x32x4096 .f32)

theorem Lm_top (c : Fin 32) (P : Fin 4096) :
    Lm xS xT (ix2 (n0 := 64) (n1 := 4096) ⟨c.val, by omega⟩ P) = Gram.unitCol (blockOf xT) c P := by
  have hc : c.val < 32 := c.isLt
  show (if h : c.val < 32 then k0_pay6 (F := Ideal) xT (ix2 (n0 := 32) (n1 := 4096) ⟨c.val, h⟩ ⟨P.val, P.isLt⟩) else _) = _
  rw [dif_pos hc, pay6_eq]
  exact pay4_apply xT c P

theorem Rm_top (c : Fin 32) (P : Fin 4096) :
    Rm xS xT (ix2 (n0 := 64) (n1 := 4096) ⟨c.val, by omega⟩ P) = Gram.unitCol (blockOf xT) c P := by
  have hc : c.val < 32 := c.isLt
  show (if h : c.val < 32 then k0_pay8 (F := Ideal) xT (ix2 (n0 := 32) (n1 := 4096) ⟨c.val, h⟩ ⟨P.val, P.isLt⟩) else _) = _
  rw [dif_pos hc, pay8_eq]
  exact pay4_apply xT c P

theorem Lm_bot (c : Fin 32) (P : Fin 4096) :
    Lm xS xT (ix2 (n0 := 64) (n1 := 4096) ⟨32 + c.val, by omega⟩ P) = Gram.unitCol (blockOf xS) c P := by
  have hc : ¬ (32 + c.val < 32) := by omega
  show (if h : 32 + c.val < 32 then _ else k0_pay7 (F := Ideal) xS (ix2 (n0 := 32) (n1 := 4096) ⟨32 + c.val - 32, by omega⟩ ⟨P.val, P.isLt⟩)) = _
  rw [dif_neg hc, pay7_eq]
  have e : (⟨32 + c.val - 32, by omega⟩ : Fin 32) = c := Fin.ext (by show 32 + c.val - 32 = c.val; omega)
  exact (congrArg (fun q : Fin 32 => k0_pay4 (F := Ideal) xS (ix2 q (⟨P.val, P.isLt⟩ : Fin 4096))) e).trans (pay4_apply xS c P)

theorem Rm_bot (c : Fin 32) (P : Fin 4096) :
    Rm xS xT (ix2 (n0 := 64) (n1 := 4096) ⟨32 + c.val, by omega⟩ P) = z - Gram.unitCol (blockOf xS) c P := by
  have hc : ¬ (32 + c.val < 32) := by omega
  show (if h : 32 + c.val < 32 then _ else k0_pay9 (F := Ideal) xS (ix2 (n0 := 32) (n1 := 4096) ⟨32 + c.val - 32, by omega⟩ ⟨P.val, P.isLt⟩)) = _
  rw [dif_neg hc, pay9_apply]
  have e : (⟨32 + c.val - 32, by omega⟩ : Fin 32) = c := Fin.ext (by show 32 + c.val - 32 = c.val; omega)
  exact congrArg (fun t : EReal => z - t)
    ((congrArg (fun q : Fin 32 => k0_pay4 (F := Ideal) xS (ix2 q (⟨P.val, P.isLt⟩ : Fin 4096))) e).trans (pay4_apply xS c P))

/-- The contraction over the 64 stacked rows at columns (P, Q) is the similarity difference there. -/
theorem contract (hS : ∀ c p, IsReal (blockOf xS c p)) (P Q : Fin 4096) :
    ∑ k : Fin 64, Lm xS xT (ix2 k P) * Rm xS xT (ix2 k Q) = Gram.simDiff (blockOf xS) (blockOf xT) P Q := by
  refine (Fin.sum_univ_add (a := 32) (b := 32) (fun k : Fin (32 + 32) => Lm xS xT (ix2 (n0 := 64) (n1 := 4096) k P) * Rm xS xT (ix2 (n0 := 64) (n1 := 4096) k Q))).trans ?_
  rw [← Gram.stacked hS z ofBits_zero_bf16 P Q]
  refine congrArg₂ (fun s t : EReal => s + t) (Finset.sum_congr rfl fun c _ => ?_) (Finset.sum_congr rfl fun c _ => ?_)
  · exact congrArg₂ (fun s t : EReal => s * t) (Lm_top xS xT c P) (Rm_top xS xT c Q)
  · exact congrArg₂ (fun s t : EReal => s * t) (Lm_bot xS xT c P) (Rm_bot xS xT c Q)

/-- The squared similarity difference at (P, Q). -/
abbrev sq (P Q : Fin 4096) : EReal :=
  Gram.simDiff (blockOf xS) (blockOf xT) P Q * Gram.simDiff (blockOf xS) (blockOf xT) P Q

/-- Tile (i, j)'s sum of squares. -/
def tileD (i j : Fin 4) : EReal :=
  ∑ a : Fin 1024, ∑ b : Fin 1024, sq xS xT ⟨1024 * i.val + a.val, by omega⟩ ⟨1024 * j.val + b.val, by omega⟩

theorem tileSum_eq (hS : ∀ c p, IsReal (blockOf xS c p)) (i j : ℕ) (hi : i < 4) (hj : j < 4) :
    tileSum (tileCols (Lm xS xT) i hi) (tileCols (Rm xS xT) j hj) = tileD xS xT ⟨i, hi⟩ ⟨j, hj⟩ := by
  unfold tileSum tileD
  refine Finset.sum_congr rfl fun a _ => Finset.sum_congr rfl fun b _ => ?_
  have e := contract xS xT hS ⟨1024 * i + a.val, by omega⟩ ⟨1024 * j + b.val, by omega⟩
  exact congrArg₂ (fun s t : EReal => s * t) e e

/-- The tile a point's position s within a sample names. -/
abbrev tileAt (s : ℕ) : EReal := tileD xS xT ⟨s % 16 / 4, by omega⟩ ⟨s % 4, by omega⟩

/-- The accumulator after tile s holds the sum of the tiles up to s. -/
theorem accChain_eq (hS : ∀ c p, IsReal (blockOf xS c p)) : ∀ (s : ℕ) (j : S1x1.Idx),
    accChain (F := Ideal) xS xT s j = ∑ s' ∈ Finset.range (s + 1), tileAt xS xT s'
  | 0, j => by
    show k0_pay2 (F := Ideal) _ _ _ j = _
    rw [pay2_apply, tileSum_eq xS xT hS 0 0 (by decide) (by decide), Finset.sum_range_one]
    show Ideal.ofBits .f32 0x00000000#32 + _ = _
    rw [Ideal.ofBits_zero_f32, zero_add]
  | s + 1, j => by
    show k0_pay2 (F := Ideal) _ _ _ j = _
    rw [pay2_apply, tileSum_eq xS xT hS _ _ _ _, accChain_eq hS s j, Finset.sum_range_succ _ (s + 1)]

/-- The sixteen tiles add up to the sum over all position pairs. -/
theorem sum_tiles : ∑ s ∈ Finset.range 16, tileAt xS xT s = ∑ P : Fin 4096, ∑ Q : Fin 4096, sq xS xT P Q := by
  rw [Gram.sum_range16]
  have e1 : ∀ (i j : Fin 4), tileAt xS xT (4 * i.val + j.val) = tileD xS xT i j := fun i j => by
    have hi := i.isLt
    have hj := j.isLt
    exact congrArg₂ (tileD xS xT) (Fin.ext (by show (4 * i.val + j.val) % 16 / 4 = i.val; omega))
      (Fin.ext (by show (4 * i.val + j.val) % 4 = j.val; omega))
  simp only [e1]
  rw [Gram.sum_4096]
  refine Finset.sum_congr rfl fun i _ => ?_
  unfold tileD
  rw [Finset.sum_comm]
  refine Finset.sum_congr rfl fun a _ => ?_
  rw [Gram.sum_4096]

end Cert.KernelIdeal.KValue

end
-- ==== Proof.KFinal.lean ====
/-
  The kernel program's result on the extended reals is the loss, when the student's array holds real numbers.

  The reshape before the region reads sample n, channel c, position p of each five-axis input; so each sample's blocks are
  the samples of `Spec`. The output array holds sample n's sum of squared similarity differences at row 8n, lane 0 and
  zero elsewhere, so its total is the sum over the samples.
-/
import proofs.«158819_j85057532330632_2_alg».proof.Proof.FinalDefs
import proofs.«158819_j85057532330632_2_alg».proof.Proof.KValue
import Idealize.ShloMosaic.Lib.StableHlo.Run

set_option maxRecDepth 16384

noncomputable section

open Idealize.ShloMosaic Idealize.ShloMosaic.TcCoe Idealize.SL.Sem Idealize.ShloMosaic.ValueIdx

namespace Cert.KernelIdeal.KFinal

open Cert.KernelIdeal Cert.KernelIdeal.Gen Cert.KernelIdeal.Pieces Cert.KernelIdeal.Inv Cert.KernelIdeal.Final
open Cert.KernelIdeal.Payload Cert.KernelIdeal.KValue Cert Cert.LibReal

variable (m : (ℓ : Loc nD τ sig) → Buf (Elt Ideal) ℓ)

/-- The region finds the student's array as the reshape of the first argument, -/
theorem V_v0 (c : Dev nD) : (V m c main_v0 : S8x32x4096.Idx → EReal)
    = shapeCast S8x32x4096 (m ((c.tc : Thread nD τ).loc main_arg0)) shapeCasts_S2x4x32x64x64_S8x32x4096 := by
  show StableHlo.after hostOps0 (fun b => m (c, b)) (Proc.devRef .tc main_v0) = _
  after_results
  rfl

/-- and the teacher's as the reshape of the second. -/
theorem V_v1 (c : Dev nD) : (V m c main_v1 : S8x32x4096.Idx → EReal)
    = shapeCast S8x32x4096 (m ((c.tc : Thread nD τ).loc main_arg1)) shapeCasts_S2x4x32x64x64_S8x32x4096 := by
  show StableHlo.after hostOps0 (fun b => m (c, b)) (Proc.devRef .tc main_v1) = _
  after_results
  rfl

/-- Sample n's student block is sample n of the first argument. -/
theorem blockS_eq (c : Dev nD) (n : Fin 8) :
    blockOf (blkS m c n.val) = Spec.sample (m ((c.tc : Thread nD τ).loc main_arg0)) n := by
  funext c' p
  show V m c main_v0 (ix3 (n0 := 8) (n1 := 32) (n2 := 4096) ⟨n.val % 8, _⟩ ⟨c'.val, _⟩ ⟨p.val, _⟩) = _
  rw [V_v0]
  have e : (⟨n.val % 8, Nat.mod_lt _ (by decide)⟩ : Fin 8) = n := Fin.ext (Nat.mod_eq_of_lt n.isLt)
  rw [e]
  exact Flat.reshape3_apply _ _ n c' p

theorem blockT_eq (c : Dev nD) (n : Fin 8) :
    blockOf (blkT m c n.val) = Spec.sample (m ((c.tc : Thread nD τ).loc main_arg1)) n := by
  funext c' p
  show V m c main_v1 (ix3 (n0 := 8) (n1 := 32) (n2 := 4096) ⟨n.val % 8, _⟩ ⟨c'.val, _⟩ ⟨p.val, _⟩) = _
  rw [V_v1]
  have e : (⟨n.val % 8, Nat.mod_lt _ (by decide)⟩ : Fin 8) = n := Fin.ext (Nat.mod_eq_of_lt n.isLt)
  rw [e]
  exact Flat.reshape3_apply _ _ n c' p

/-- Sample n's contribution to the loss. -/
abbrev sampleTotal (xS xT : Spec.Arr) (n : Fin 8) : EReal :=
  ∑ p : Fin 4096, ∑ q : Fin 4096,
    Gram.simDiff (Spec.sample xS n) (Spec.sample xT n) p q * Gram.simDiff (Spec.sample xS n) (Spec.sample xT n) p q

/-- The accumulator after sample n's last tile holds it. -/
theorem acc_last (c : Dev nD) (hS : RealVec (s := S2x4x32x64x64) (φ := .f32) (m ((c.tc : Thread nD τ).loc main_arg0))) (n : Fin 8) (j : S1x1.Idx) :
    accChain (F := Ideal) (blkS m c n.val) (blkT m c n.val) 15 j
      = sampleTotal (m ((c.tc : Thread nD τ).loc main_arg0)) (m ((c.tc : Thread nD τ).loc main_arg1)) n := by
  have hB : ∀ c' p, IsReal (blockOf (blkS m c n.val) c' p) := fun c' p => by
    rw [blockS_eq]; exact hS _
  rw [accChain_eq _ _ hB 15 j, sum_tiles]
  show (∑ P : Fin 4096, ∑ Q : Fin 4096, Gram.simDiff (blockOf (blkS m c n.val)) (blockOf (blkT m c n.val)) P Q
      * Gram.simDiff (blockOf (blkS m c n.val)) (blockOf (blkT m c n.val)) P Q) = _
  rw [blockS_eq, blockT_eq]

/-- A sum with one term that can be non-zero, at coordinate 0. -/
theorem sum_single {n : ℕ} (hn : 0 < n) (A : EReal) (P : Prop) [Decidable P] :
    ∑ l : Fin n, (if P ∧ l.val = 0 then A else 0) = if P then A else 0 := by
  by_cases hP : P
  · rw [if_pos hP, Finset.sum_eq_single (⟨0, hn⟩ : Fin n)]
    · rw [if_pos ⟨hP, rfl⟩]
    · intro b _ hb
      rw [if_neg]
      intro h
      exact hb (Fin.ext h.2)
    · intro h; exact absurd (Finset.mem_univ _) h
  · rw [if_neg hP]
    exact Finset.sum_eq_zero fun l _ => if_neg fun h => hP h.1

/-- A sum over 64 rows of terms that vanish off the rows 8n is the sum over the eight n. -/
theorem sum_rows8 (f : ℕ → EReal) :
    ∑ r : Fin 64, (if r.val % 8 = 0 then f (r.val / 8) else 0) = ∑ n : Fin 8, f n.val := by
  have e := Equiv.sum_comp (finProdFinEquiv (m := 8) (n := 8)) (fun r : Fin (8 * 8) => if r.val % 8 = 0 then f (r.val / 8) else 0)
  rw [show (∑ r : Fin 64, (if r.val % 8 = 0 then f (r.val / 8) else 0)) = ∑ r : Fin (8 * 8), (if r.val % 8 = 0 then f (r.val / 8) else 0) from rfl,
    ← e, Fintype.sum_prod_type]
  refine Finset.sum_congr rfl fun n _ => ?_
  have hn := n.isLt
  have step : ∀ y : Fin 8, (if (finProdFinEquiv (m := 8) (n := 8) (n, y)).val % 8 = 0 then f ((finProdFinEquiv (m := 8) (n := 8) (n, y)).val / 8) else 0)
      = if True ∧ y.val = 0 then f n.val else 0 := fun y => by
    have hy := y.isLt
    have hv : (finProdFinEquiv (m := 8) (n := 8) (n, y)).val = y.val + 8 * n.val := rfl
    rw [hv]
    by_cases h0 : y.val = 0
    · rw [if_pos (by omega), if_pos ⟨trivial, h0⟩]
      exact congrArg f (by omega)
    · rw [if_neg (by omega), if_neg (fun h => h0 h.2)]
  rw [Finset.sum_congr rfl fun y _ => step y, sum_single (by decide) _ True, if_pos trivial]

/-- The total of the output array is the sum of the samples' contributions. -/
theorem sum_G (c : Dev nD) (hS : RealVec (s := S2x4x32x64x64) (φ := .f32) (m ((c.tc : Thread nD τ).loc main_arg0))) :
    ∑ i : S64x128.Idx, G m c i = Spec.total (m ((c.tc : Thread nD τ).loc main_arg0)) (m ((c.tc : Thread nD τ).loc main_arg1)) := by
  rw [sum_idx2]
  have row : ∀ r : Fin 64, ∑ l : Fin 128, G m c (ix2 r l)
      = if r.val % 8 = 0 then (fun n : ℕ => accChain (F := Ideal) (blkS m c n) (blkT m c n) 15 (ix2 (0 : Fin 1) (0 : Fin 1))) (r.val / 8) else 0 := fun r => by
    have e : ∀ l : Fin 128, G m c (ix2 r l)
        = if r.val % 8 = 0 ∧ l.val = 0 then accChain (F := Ideal) (blkS m c (r.val / 8)) (blkT m c (r.val / 8)) 15 (ix2 (0 : Fin 1) (0 : Fin 1)) else 0 := fun l =>
      pay3_apply (accChain (F := Ideal) (blkS m c (r.val / 8)) (blkT m c (r.val / 8)) 15) ⟨r.val % 8, Nat.mod_lt _ (by decide)⟩ ⟨l.val, l.isLt⟩
    rw [Finset.sum_congr rfl fun l _ => e l]
    exact sum_single (by decide) _ _
  rw [Finset.sum_congr rfl fun r _ => row r]
  refine (sum_rows8 (fun n : ℕ => accChain (F := Ideal) (blkS m c n) (blkT m c n) 15 (ix2 (0 : Fin 1) (0 : Fin 1)))).trans ?_
  unfold Spec.total
  exact Finset.sum_congr rfl fun n _ => acc_last m c hS n _

/-- The program's result is the loss. -/
theorem tail_G (c : Dev nD) (hS : RealVec (s := S2x4x32x64x64) (φ := .f32) (m ((c.tc : Thread nD τ).loc main_arg0))) :
    tail (G m c) = fun _ => Spec.loss (m ((c.tc : Thread nD τ).loc main_arg0)) (m ((c.tc : Thread nD τ).loc main_arg1)) := by
  funext i
  unfold tail Spec.loss
  have hsum : Host.reduceAdd (F := Ideal) (G m c) (constant (F := Ideal) S_ .f32 0x00000000#32) reducesTo_S64x128_S_d0_1 h_S_ i
      = Spec.total (m ((c.tc : Thread nD τ).loc main_arg0)) (m ((c.tc : Thread nD τ).loc main_arg1)) := by
    simp only [Host.reduceAdd, Ideal.hostReduceAdd_def]
    refine (Ideal.hostReduceAdd_total reducesTo_S64x128_S_d0_1 (fun b => b.elim0) (G m c) _ i).trans ?_
    rw [sum_G m c hS]
    show Ideal.ofBits .f32 0x00000000#32 + _ = _
    rw [Ideal.ofBits_zero_f32, zero_add]
  show Ideal.div (Ideal.div (Ideal.div (Host.reduceAdd (F := Ideal) (G m c) _ reducesTo_S64x128_S_d0_1 h_S_ i) _) _) _ = _
  rw [hsum]
  rfl

end Cert.KernelIdeal.KFinal

end
-- ==== Proof.RefSide.lean ====
/-
  The reference, read entry by entry: it normalises each sample's columns, forms the two similarity matrices by a
  batched product, subtracts, squares, sums everything and divides three times — the loss of `Spec`.
-/
import proofs.«158819_j85057532330632_2_alg».proof.Proof.Gen.ReferenceIdeal.Read
import proofs.«158819_j85057532330632_2_alg».proof.Proof.Spec

noncomputable section

open Idealize.ShloMosaic Idealize.ShloMosaic.ValueIdx

namespace Cert.ReferenceIdeal.RefValue

open Cert.ReferenceIdeal Cert.ReferenceIdeal.Read Cert

/-- The reshape to [8, 32, 64, 64] and then to [8, 32, 4096] reads (n, c, p) at the five-axis position of `Flat.p5`. -/
theorem e_entry (n : Fin 8) (c : Fin 32) (p : Fin 4096) : idx_main_v1 (idx_main_v10 (ix3 n c p)) = Flat.p5 n c p :=
  funext fun a => Fin.ext (by
    have hn : n.val < 8 := n.isLt
    have hc : c.val < 32 := c.isLt
    have hp : p.val < 4096 := p.isLt
    match a with
    | ⟨0, _⟩ => dsimp only [idx_main_v1, idx_main_v10, Flat.p5, ix3, ix5]; omega
    | ⟨1, _⟩ => dsimp only [idx_main_v1, idx_main_v10, Flat.p5, ix3, ix5]; omega
    | ⟨2, _⟩ => dsimp only [idx_main_v1, idx_main_v10, Flat.p5, ix3, ix5]; omega
    | ⟨3, _⟩ => dsimp only [idx_main_v1, idx_main_v10, Flat.p5, ix3, ix5]; omega
    | ⟨4, _⟩ => dsimp only [idx_main_v1, idx_main_v10, Flat.p5, ix3, ix5]; omega)

/-- The channel sum under the norm at (n, c, p) runs over the entries (n, k, p). -/
theorem e_norm (n : Fin 8) (c : Fin 32) (p : Fin 4096) (k : Fin 32) :
    idx_main_v1 (idx_main_v3 (idx_main_v4 (idx_main_v8 (idx_main_v10 (ix3 n c p)))) k) = Flat.p5 n k p :=
  funext fun a => Fin.ext (by
    have hn : n.val < 8 := n.isLt
    have hc : c.val < 32 := c.isLt
    have hp : p.val < 4096 := p.isLt
    have hk : k.val < 32 := k.isLt
    match a with
    | ⟨0, _⟩ => dsimp only [idx_main_v1, idx_main_v3, idx_main_v4, idx_main_v8, idx_main_v10, Flat.p5, ix3, ix5]; omega
    | ⟨1, _⟩ => dsimp only [idx_main_v1, idx_main_v3, idx_main_v4, idx_main_v8, idx_main_v10, Flat.p5, ix3, ix5]; omega
    | ⟨2, _⟩ => dsimp only [idx_main_v1, idx_main_v3, idx_main_v4, idx_main_v8, idx_main_v10, Flat.p5, ix3, ix5]; omega
    | ⟨3, _⟩ => dsimp only [idx_main_v1, idx_main_v3, idx_main_v4, idx_main_v8, idx_main_v10, Flat.p5, ix3, ix5]; omega
    | ⟨4, _⟩ => dsimp only [idx_main_v1, idx_main_v3, idx_main_v4, idx_main_v8, idx_main_v10, Flat.p5, ix3, ix5]; omega)

/-- The teacher's normalised array at (n, c, p). -/
theorem v10_apply (x1 : Spec.Arr) (n : Fin 8) (c : Fin 32) (p : Fin 4096) :
    val_main_v10 (F := Ideal) x1 (ix3 n c p) = Gram.unitCol (Spec.sample x1 n) c p := by
  rw [val_main_v10_apply, val_main_v9_apply, val_main_v1_apply, val_main_v8_apply, val_main_v7_apply, val_main_v5_apply,
    val_main_v4_apply, val_main_v3_apply, val_main_v6_apply, val_main_cst_0_apply, val_main_cst_apply]
  simp only [val_main_v2_apply, val_main_v1_apply, e_entry, e_norm]
  unfold Gram.unitCol Gram.colNorm Spec.sample
  simp only [Ideal.hostDivf_def, Ideal.addf_def, Ideal.hostUnary_sqrt_def, Ideal.mulf_def, Ideal.ofBits_def, Ideal.ofBits_zero_f32, zero_add]

theorem e_entry0 (n : Fin 8) (c : Fin 32) (p : Fin 4096) : idx_main_v0 (idx_main_v20 (ix3 n c p)) = Flat.p5 n c p :=
  funext fun a => Fin.ext (by
    have hn : n.val < 8 := n.isLt
    have hc : c.val < 32 := c.isLt
    have hp : p.val < 4096 := p.isLt
    match a with
    | ⟨0, _⟩ => dsimp only [idx_main_v0, idx_main_v20, Flat.p5, ix3, ix5]; omega
    | ⟨1, _⟩ => dsimp only [idx_main_v0, idx_main_v20, Flat.p5, ix3, ix5]; omega
    | ⟨2, _⟩ => dsimp only [idx_main_v0, idx_main_v20, Flat.p5, ix3, ix5]; omega
    | ⟨3, _⟩ => dsimp only [idx_main_v0, idx_main_v20, Flat.p5, ix3, ix5]; omega
    | ⟨4, _⟩ => dsimp only [idx_main_v0, idx_main_v20, Flat.p5, ix3, ix5]; omega)

theorem e_norm0 (n : Fin 8) (c : Fin 32) (p : Fin 4096) (k : Fin 32) :
    idx_main_v0 (idx_main_v13 (idx_main_v14 (idx_main_v18 (idx_main_v20 (ix3 n c p)))) k) = Flat.p5 n k p :=
  funext fun a => Fin.ext (by
    have hn : n.val < 8 := n.isLt
    have hc : c.val < 32 := c.isLt
    have hp : p.val < 4096 := p.isLt
    have hk : k.val < 32 := k.isLt
    match a with
    | ⟨0, _⟩ => dsimp only [idx_main_v0, idx_main_v13, idx_main_v14, idx_main_v18, idx_main_v20, Flat.p5, ix3, ix5]; omega
    | ⟨1, _⟩ => dsimp only [idx_main_v0, idx_main_v13, idx_main_v14, idx_main_v18, idx_main_v20, Flat.p5, ix3, ix5]; omega
    | ⟨2, _⟩ => dsimp only [idx_main_v0, idx_main_v13, idx_main_v14, idx_main_v18, idx_main_v20, Flat.p5, ix3, ix5]; omega
    | ⟨3, _⟩ => dsimp only [idx_main_v0, idx_main_v13, idx_main_v14, idx_main_v18, idx_main_v20, Flat.p5, ix3, ix5]; omega
    | ⟨4, _⟩ => dsimp only [idx_main_v0, idx_main_v13, idx_main_v14, idx_main_v18, idx_main_v20, Flat.p5, ix3, ix5]; omega)

/-- The student's normalised array at (n, c, p). -/
theorem v20_apply (x0 : Spec.Arr) (n : Fin 8) (c : Fin 32) (p : Fin 4096) :
    val_main_v20 (F := Ideal) x0 (ix3 n c p) = Gram.unitCol (Spec.sample x0 n) c p := by
  rw [val_main_v20_apply, val_main_v19_apply, val_main_v0_apply, val_main_v18_apply, val_main_v17_apply, val_main_v15_apply,
    val_main_v14_apply, val_main_v13_apply, val_main_v16_apply, val_main_cst_2_apply, val_main_cst_1_apply]
  simp only [val_main_v12_apply, val_main_v0_apply, e_entry0, e_norm0]
  unfold Gram.unitCol Gram.colNorm Spec.sample
  simp only [Ideal.hostDivf_def, Ideal.addf_def, Ideal.hostUnary_sqrt_def, Ideal.mulf_def, Ideal.ofBits_def, Ideal.ofBits_zero_f32, zero_add]

/-- The teacher's similarity matrix of sample n at (p, q). -/
theorem v11_gram (x1 : Spec.Arr) (n : Fin 8) (p q : Fin 4096) :
    val_main_v11 (F := Ideal) x1 (ix3 n p q) = Gram.gram (Spec.sample x1 n) p q := by
  rw [val_main_v11_apply]
  unfold Gram.gram
  refine Finset.sum_congr rfl fun k _ => ?_
  have el : lidx_main_v11 (ix3 n p q) k = ix3 n k p := funext fun a => Fin.ext (by
    match a with | ⟨0, _⟩ => rfl | ⟨1, _⟩ => rfl | ⟨2, _⟩ => rfl)
  have er : ridx_main_v11 (ix3 n p q) k = ix3 n k q := funext fun a => Fin.ext (by
    match a with | ⟨0, _⟩ => rfl | ⟨1, _⟩ => rfl | ⟨2, _⟩ => rfl)
  rw [el, er, v10_apply, v10_apply]

/-- The student's. -/
theorem v21_gram (x0 : Spec.Arr) (n : Fin 8) (p q : Fin 4096) :
    val_main_v21 (F := Ideal) x0 (ix3 n p q) = Gram.gram (Spec.sample x0 n) p q := by
  rw [val_main_v21_apply]
  unfold Gram.gram
  refine Finset.sum_congr rfl fun k _ => ?_
  have el : lidx_main_v21 (ix3 n p q) k = ix3 n k p := funext fun a => Fin.ext (by
    match a with | ⟨0, _⟩ => rfl | ⟨1, _⟩ => rfl | ⟨2, _⟩ => rfl)
  have er : ridx_main_v21 (ix3 n p q) k = ix3 n k q := funext fun a => Fin.ext (by
    match a with | ⟨0, _⟩ => rfl | ⟨1, _⟩ => rfl | ⟨2, _⟩ => rfl)
  rw [el, er, v20_apply, v20_apply]

/-- The reference's result is the loss. -/
theorem result_eq (x0 x1 : Spec.Arr) : val_main_v27 (F := Ideal) x0 x1 = fun _ => Spec.loss x0 x1 := by
  funext i
  rw [val_main_v27_apply, val_main_v26_apply, val_main_v25_apply, val_main_v24_apply, val_main_cst_4_apply, val_main_cst_5_apply,
    val_main_cst_6_apply, val_main_cst_3_apply, Flat.sum_idx3]
  unfold Spec.loss Spec.total Gram.simDiff
  simp only [Ideal.hostDivf_def, Ideal.ofBits_def, Ideal.ofBits_zero_f32, zero_add, val_main_v23_apply, val_main_v22_apply,
    Ideal.mulf_def, Ideal.subf_def, v11_gram, v21_gram]

end Cert.ReferenceIdeal.RefValue

end
-- ==== Proof.Pre.lean ====
/-
  The precondition read: each input passes jnp's finiteness test at every entry, so every entry is a real number.
-/
import proofs.«158819_j85057532330632_2_alg».proof.Pre_finite_inputs
import proofs.«158819_j85057532330632_2_alg».proof.Proof.Gen.Pre_finite_inputs
import proofs.«158819_j85057532330632_2_alg».proof.Proof.LibReal
import Idealize.ShloMosaic.Lib.ReduceAll
import Idealize.ShloMosaic.Lib.Affine
import Idealize.ShloMosaic.Lib.ValueIdx

noncomputable section

namespace Cert.Pre

open Idealize.ShloMosaic Cert.LibReal

instance : Subsingleton Cert.Pre_finite_inputs.S_.Idx := ⟨fun a b => funext fun d => d.elim0⟩

/-- Both inputs are arrays of real numbers when the test holds. -/
theorem real_of_pre [Cert.Pre_finite_inputs.Facts] (x0 x1 : FVec Ideal Cert.Pre_finite_inputs.S2x4x32x64x64 .f32)
    (h : Cert.Pre_finite_inputs.fn (F := Ideal) x0 x1 = fun _ => 1#1) : RealVec x0 ∧ RealVec x1 := by
  have h0 := congrFun h ValueIdx.ix0
  dsimp only [Cert.Pre_finite_inputs.fn] at h0
  obtain ⟨ha, hb⟩ := IntOp.andi_eq_one.1 h0
  exact ⟨realVec_of_finite_test x0 fun i => Host.reduce_andi_all _ _ _ _ _ ha i,
    realVec_of_finite_test x1 fun i => Host.reduce_andi_all _ _ _ _ _ hb i⟩

end Cert.Pre

end
-- ==== Proof.lean ====
/-
  A feature-distillation loss: for each of eight samples, the 4096 × 4096 cosine-similarity matrix of the teacher's
  channel vectors minus that of the student's, squared and summed, the total divided by 4096², by 2 and by 4.

  The reference forms both similarity matrices by a batched product and subtracts. The kernel normalises a sample once,
  stacks the teacher's rows above the student's (and above the negated student's), and per 1024 × 1024 tile contracts the
  two 64-row stacks, which gives the difference directly; it squares, sums the tile and accumulates over the sixteen
  tiles, and the host adds the eight samples' totals. On the extended reals the two agree because the inputs are finite:
  the normalised student entries are then real, so the sum of the negated products is the negated sum, and all the
  remaining differences are orders of summation. Both programs then divide by the same three constants.
-/
import proofs.«158819_j85057532330632_2_alg».proof.Defs
import proofs.«158819_j85057532330632_2_alg».proof.Proof.Gen.Kernel
import proofs.«158819_j85057532330632_2_alg».proof.Proof.Gen.Kernel.Skeleton
import proofs.«158819_j85057532330632_2_alg».proof.Proof.Gen.Kernel.Launch
import proofs.«158819_j85057532330632_2_alg».proof.Proof.Gen.Kernel.Points
import proofs.«158819_j85057532330632_2_alg».proof.Proof.Gen.Kernel.Frame
import proofs.«158819_j85057532330632_2_alg».proof.Proof.Gen.KernelIdeal
import proofs.«158819_j85057532330632_2_alg».proof.Proof.Gen.KernelIdeal.Skeleton
import proofs.«158819_j85057532330632_2_alg».proof.Proof.Gen.KernelIdeal.Launch
import proofs.«158819_j85057532330632_2_alg».proof.Proof.Gen.KernelIdeal.Points
import proofs.«158819_j85057532330632_2_alg».proof.Proof.Gen.KernelIdeal.Frame
import proofs.«158819_j85057532330632_2_alg».proof.Proof.Gen.ReferenceIdeal
import proofs.«158819_j85057532330632_2_alg».proof.Proof.Gen.ReferenceIdeal.Run
import proofs.«158819_j85057532330632_2_alg».proof.Proof.Gen.ReferenceIdeal.Read
import proofs.«158819_j85057532330632_2_alg».proof.Proof.Gen.Pre_finite_inputs
import proofs.«158819_j85057532330632_2_alg».proof.Proof.Final
import proofs.«158819_j85057532330632_2_alg».proof.Proof.KFinal
import proofs.«158819_j85057532330632_2_alg».proof.Proof.RefSide
import proofs.«158819_j85057532330632_2_alg».proof.Proof.Pre
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both programs end with the loss of the two argument arrays: the kernel program because its first argument is real
    (the precondition), the reference for any values. -/
theorem algebraic : Cert.algebraic_KernelIdeal_ReferenceIdeal := by
  intro m ρ m' ρ' hpre hagree
  refine ⟨fun c => fun _ => Cert.Spec.loss (m ((c.tc : Thread Cert.KernelIdeal.nD Cert.KernelIdeal.τ).loc Cert.KernelIdeal.main_arg0))
    (m ((c.tc : Thread Cert.KernelIdeal.nD Cert.KernelIdeal.τ).loc Cert.KernelIdeal.main_arg1)), ?_, ?_⟩
  · refine (θ_run Cert.KernelIdeal.defs _ _).mono (fun _ h c => ⟨(h c).1.trans ?_, (h c).2⟩)
      (Cert.KernelIdeal.Final.run (F := Ideal) m ρ)
    exact Cert.KernelIdeal.KFinal.tail_G m c (Cert.Pre.real_of_pre _ _ (hpre c)).1
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v27_eq, Cert.ReferenceIdeal.RefValue.result_eq, (hagree c).1, (hagree c).2]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
